-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S10000x128 : Shape := ⟨2, ![10000, 128]⟩
abbrev S1650000x128 : Shape := ⟨2, ![1650000, 128]⟩
abbrev S1x128 : Shape := ⟨2, ![1, 128]⟩
abbrev S50000x64 : Shape := ⟨2, ![50000, 64]⟩

abbrev nBuf : Space → Nat
  | .hbm => 90
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S128x128, .f32⟩
  | .hbm, ⟨68, _⟩ => ⟨S128, .f32⟩
  | .hbm, ⟨69, _⟩ => ⟨S50000x128, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x128, .f32⟩
  | .hbm, ⟨79, _⟩ => ⟨S1650000x1, .f32⟩
  | .hbm, ⟨80, _⟩ => ⟨S1650000x128, .f32⟩
  | .hbm, ⟨81, _⟩ => ⟨S1650000x128, .f32⟩
  | .hbm, ⟨82, _⟩ => ⟨S_, .f32⟩
  | .hbm, ⟨83, _⟩ => ⟨S50000x128, .f32⟩
  | .hbm, ⟨84, _⟩ => ⟨S1650000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x64, .f32⟩
  | .hbm, ⟨89, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x128_S128x128_S10000x128_1_0_0_1_n_n_wf : DotDims.WF S10000x128 S128x128 S10000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S50000x128, .f32⟩
  | 13 => ⟨S50000, .i32⟩
  | 14 => ⟨S1650000, .i32⟩
  | 15 => ⟨S1650000, .i32⟩
  | 16 => ⟨S_, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000, .f32⟩
  | 48 => ⟨S1650000, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000x128, .f32⟩
  | 58 => ⟨S1650000x1, .f32⟩
  | 59 => ⟨S1650000x128, .f32⟩
  | 60 => ⟨S1650000x128, .f32⟩
  | 61 => ⟨S_, .f32⟩
  | 62 => ⟨S50000x128, .f32⟩
  | 63 => ⟨S1650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S50000, .i32⟩
  | 73 => ⟨S1650000, .i32⟩
  | 74 => ⟨S1650000, .i32⟩
  | 75 => ⟨S_, .f32⟩
  | 76 => ⟨S1650000, .f32⟩
  | 77 => ⟨S_, .f32⟩
  | 78 => ⟨S50000, .f32⟩
  | 79 => ⟨S1650000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S1650000, .i32⟩
  | 91 => ⟨S1650000, .i1⟩
  | 92 => ⟨S_, .i32⟩
  | 93 => ⟨S1650000, .i32⟩
  | 94 => ⟨S1650000, .i32⟩
  | 95 => ⟨S1650000, .i32⟩
  | 96 => ⟨S1650000x1, .i32⟩
  | 97 => ⟨S1650000, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000, .f32⟩
  | 107 => ⟨S1650000, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000x64, .f32⟩
  | 117 => ⟨S1650000x1, .f32⟩
  | 118 => ⟨S1650000x64, .f32⟩
  | 119 => ⟨S1650000x64, .f32⟩
  | 120 => ⟨S_, .f32⟩
  | 121 => ⟨S50000x64, .f32⟩
  | 122 => ⟨S1650000x1, .i32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000, .i32⟩
  | 1 => ⟨S1650000, .i32⟩
  | 2 => ⟨S1650000, .i32⟩
  | 3 => ⟨S_, .f32⟩
  | 4 => ⟨S1650000, .f32⟩
  | 5 => ⟨S_, .f32⟩
  | 6 => ⟨S50000, .f32⟩
  | 7 => ⟨S1650000x1, .i32⟩
  | 8 => ⟨S50000, .f32⟩
  | 9 => ⟨S_, .f32⟩
  | 10 => ⟨S50000, .f32⟩
  | 11 => ⟨S50000, .i1⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S1650000, .i32⟩
  | 19 => ⟨S1650000, .i1⟩
  | 20 => ⟨S_, .i32⟩
  | 21 => ⟨S1650000, .i32⟩
  | 22 => ⟨S1650000, .i32⟩
  | 23 => ⟨S1650000, .i32⟩
  | 24 => ⟨S1650000x1, .i32⟩
  | 25 => ⟨S1650000, .f32⟩
  | 26 => ⟨S_, .i32⟩
  | 27 => ⟨S1650000, .i32⟩
  | 28 => ⟨S1650000, .i1⟩
  | 29 => ⟨S_, .i32⟩
  | 30 => ⟨S1650000, .i32⟩
  | 31 => ⟨S1650000, .i32⟩
  | 32 => ⟨S1650000, .i32⟩
  | 33 => ⟨S1650000x1, .i32⟩
  | 34 => ⟨S1650000, .f32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000x64, .f32⟩
  | 45 => ⟨S1650000x1, .f32⟩
  | 46 => ⟨S1650000x64, .f32⟩
  | 47 => ⟨S1650000x64, .f32⟩
  | 48 => ⟨S_, .f32⟩
  | 49 => ⟨S50000x64, .f32⟩
  | 50 => ⟨S1650000x1, .i32⟩
  | 51 => ⟨S50000x64, .f32⟩
  | 52 => ⟨S1x64, .f32⟩
  | 53 => ⟨S50000x64, .f32⟩
  | 54 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_call3_v0 : Ref sig .tc := ⟨.hbm, 142, rfl⟩
abbrev main_call3_v1 : Ref sig .tc := ⟨.hbm, 143, rfl⟩
abbrev main_v102 : Ref sig .tc := ⟨.hbm, 144, rfl⟩
abbrev main_c_24 : Ref sig .tc := ⟨.hbm, 145, rfl⟩
abbrev main_v103 : Ref sig .tc := ⟨.hbm, 146, rfl⟩
abbrev main_v104 : Ref sig .tc := ⟨.hbm, 147, rfl⟩
abbrev main_c_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_26 : Ref sig .tc := ⟨.hbm, 154, rfl⟩
abbrev main_v110 : Ref sig .tc := ⟨.hbm, 155, rfl⟩
abbrev main_v111 : Ref sig .tc := ⟨.hbm, 156, rfl⟩
abbrev main_c_27 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_28 : Ref sig .tc := ⟨.hbm, 164, rfl⟩
abbrev main_v118 : Ref sig .tc := ⟨.hbm, 165, rfl⟩
abbrev main_v119 : Ref sig .tc := ⟨.hbm, 166, rfl⟩
abbrev main_c_29 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_30 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.HostFns.lean ====
/-
  The graph-dependent host operations of the kernel program, named once. From the edge list (a [2, E] integer array:
  row 0 the sources, row 1 the targets) the program appends one self-loop per node to each row, counts for every node
  the edges that arrive at it (a scatter-add of ones), takes the inverse square root of the positive counts (zero
  elsewhere), and gives each edge the product of that factor at its source and at its target. One aggregation step
  gathers the source rows of a [N, 128] matrix, scales each gathered row by its edge's factor, and scatter-adds the
  rows at the targets. A negative source index is first shifted by N, as jnp's indexing does; the scatter reads its
  index signed and drops an update that lands outside.
-/
import proofs.«118369_j9783935500965_1_alg».proof.Proof.Gen.KernelIdeal

set_option maxRecDepth 8192

noncomputable section

namespace Cert.KernelIdeal.HostFns

open Cert.KernelIdeal Cert.KernelIdeal.Gen Idealize.ShloMosaic Idealize.ShloMosaic.TcCoe

variable {F : FTy → Type} [FloatOps F]

/-- The sources with the self-loops appended: the edge list's row 0, then 0, 1, …, N − 1. -/
def srcIdx (ei : IVec S2x1600000 32) : IVec S1650000 32 :=
  (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0)

/-- The targets with the self-loops appended: the edge list's row 1, then 0, 1, …, N − 1. -/
def tgtIdx (ei : IVec S2x1600000 32) : IVec S1650000 32 :=
  (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)

/-- The sources as a gather reads them: a negative index shifted by N. -/
def srcSel (ei : IVec S2x1600000 32) : IVec S1650000 32 :=
  (select (cmpi .slt (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0))

/-- Each edge's factor: (count at its source)^(-1/2) · (count at its target)^(-1/2), a count that is not positive
    contributing the factor zero. -/
def edgeNorm (ei : IVec S2x1600000 32) : FVec F S1650000 .f32 :=
  (mulf (Host.gather gather_S50000_S1650000x1_S1650000_n_0_n_n_0_1_1 (select (cmpf .ogt (Host.scatterAdd scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32))) (broadcastInDim S50000 ![] bcast_S_S50000 (constant (F := F) S_ .f32 0x00000000#32))) (Host.rsqrt (Host.scatterAdd scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32)))) (broadcastInDim S50000 ![] bcast_S_S50000 (id (constant (F := F) S_ .f32 0x00000000#32)))) (broadcastInDim S1650000x1 ![0] bcast_S1650000_S1650000x1_0 (select (cmpi .slt (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0)))) (Host.gather gather_S50000_S1650000x1_S1650000_n_0_n_n_0_1_1 (select (cmpf .ogt (Host.scatterAdd scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32))) (broadcastInDim S50000 ![] bcast_S_S50000 (constant (F := F) S_ .f32 0x00000000#32))) (Host.rsqrt (Host.scatterAdd scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32)))) (broadcastInDim S50000 ![] bcast_S_S50000 (id (constant (F := F) S_ .f32 0x00000000#32)))) (broadcastInDim S1650000x1 ![0] bcast_S1650000_S1650000x1_0 (select (cmpi .slt (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)))))

/-- One aggregation step on a [N, 128] matrix with the three edge arrays given: row n of the result is the sum over
    the edges e whose target is n of (the matrix's row at e's source, the source read as a gather reads it) · (e's
    factor). -/
def aggrOf (t : FVec F S50000x128 .f32) (src tgt : IVec S1650000 32) (nrm : FVec F S1650000 .f32) : FVec F S50000x128 .f32 :=
  Host.scatterAdd scatter_S50000x128_S1650000x1_S1650000x128_1_0_0_1
    (broadcastInDim S50000x128 ![] bcast_S_S50000x128 (constant (F := F) S_ .f32 0x00000000#32))
    (broadcastInDim S1650000x1 ![0] bcast_S1650000_S1650000x1_0 tgt)
    (mulf (Host.gather gather_S50000x128_S1650000x1_S1650000x128_1_0_n_n_0_1_1128 t
        (broadcastInDim S1650000x1 ![0] bcast_S1650000_S1650000x1_0
          (select (cmpi .slt src (broadcastInDim S1650000 ![] bcast_S_S1650000 (constantI S_ 32 0#32)))
            (addi src (broadcastInDim S1650000 ![] bcast_S_S1650000 (constantI S_ 32 50000#32))) src)))
      (broadcastInDim S1650000x128 ![0, 1] bcast_S1650000x1_S1650000x128_0_1
        (broadcastInDim S1650000x1 ![0] bcast_S1650000_S1650000x1_0 nrm)))

/-- One aggregation step along the program's own edge arrays. -/
def aggr (t : FVec F S50000x128 .f32) (ei : IVec S2x1600000 32) : FVec F S50000x128 .f32 :=
  aggrOf t (srcIdx ei) (tgtIdx ei) (edgeNorm (F := F) ei)

end Cert.KernelIdeal.HostFns

end
-- ==== Proof.RefFns.lean ====
/-
  The reference program's two results as two layers. The reference computes each graph convolution separately: a
  dense product on the host, the aggregation along the edges (the same gather, scaling and scatter-add as the kernel
  program's, on the same self-looped edge list with the same edge factors), and the bias broadcast over the rows.
  The hidden layer is the first convolution followed by the maximum with zero; each result is one more convolution of
  the hidden layer with its own [128, 64] weights and [64] bias, aggregated over 64 columns. The run's two result terms
  are literally these compositions.
-/
import proofs.«118369_j9783935500965_1_alg».proof.Proof.RefRun
import proofs.«118369_j9783935500965_1_alg».proof.Proof.HostFns

set_option maxRecDepth 16384

noncomputable section

namespace Cert.ReferenceIdeal.RefFns

open Cert.ReferenceIdeal Cert.ReferenceIdeal.Gen Cert.ReferenceIdeal.ValueP Idealize.ShloMosaic Idealize.ShloMosaic.TcCoe Idealize.SL.Sem

variable {F : FTy → Type} [FloatOps F]

/-- The hidden layer: max (aggregate (x · W₁) + b₁) 0, the bias added to every row. -/
def hidden (x : FVec F S50000x128 .f32) (w1 : FVec F S128x128 .f32) (b1 : FVec F S128 .f32) (ei : IVec S2x1600000 32) :
    FVec F S50000x128 .f32 :=
  maximumf
    (addf (Cert.KernelIdeal.HostFns.aggr (F := F) (Host.dotGeneral dot_S50000x128_S128x128_S50000x128_1_0_0_1_n_n none x w1) ei)
      (broadcastInDim S50000x128 ![0, 1] bcast_S1x128_S50000x128_0_1 (broadcastInDim S1x128 ![1] bcast_S128_S1x128_1 b1)))
    (broadcastInDim S50000x128 ![] bcast_S_S50000x128 (constant (F := F) S_ .f32 0x00000000#32))

/-- One output layer: aggregate (h · W) + b over 64 columns. -/
def layer64 (h : FVec F S50000x128 .f32) (w : FVec F S128x64 .f32) (b : FVec F S64 .f32) (ei : IVec S2x1600000 32) :
    FVec F S50000x64 .f32 :=
  addf
    (Host.scatterAdd scatter_S50000x64_S1650000x1_S1650000x64_1_0_0_1
      (broadcastInDim S50000x64 ![] bcast_S_S50000x64 (constant (F := F) S_ .f32 0x00000000#32))
      (broadcastInDim S1650000x1 ![0] bcast_S1650000_S1650000x1_0 (Cert.KernelIdeal.HostFns.tgtIdx ei))
      (mulf (Host.gather gather_S50000x64_S1650000x1_S1650000x64_1_0_n_n_0_1_164
          (Host.dotGeneral dot_S50000x128_S128x64_S50000x64_1_0_0_1_n_n none h w)
          (broadcastInDim S1650000x1 ![0] bcast_S1650000_S1650000x1_0 (Cert.KernelIdeal.HostFns.srcSel ei)))
        (broadcastInDim S1650000x64 ![0, 1] bcast_S1650000x1_S1650000x64_0_1
          (broadcastInDim S1650000x1 ![0] bcast_S1650000_S1650000x1_0 (Cert.KernelIdeal.HostFns.edgeNorm (F := F) ei)))))
    (broadcastInDim S50000x64 ![0, 1] bcast_S1x64_S50000x64_0_1 (broadcastInDim S1x64 ![1] bcast_S64_S1x64_1 b))

set_option maxHeartbeats 4000000 in
/-- The first result (the means): the output layer with the fifth and sixth arguments on the hidden layer. -/
theorem res_mu (m : (ℓ : Loc nD τ sig) → Buf (Elt F) ℓ) (c : Dev nD) :
    res_main_v90 m c = layer64
      (hidden (m ((c.tc : Thread nD τ).loc main_arg0)) (m ((c.tc : Thread nD τ).loc main_arg2)) (m ((c.tc : Thread nD τ).loc main_arg3))
        (m ((c.tc : Thread nD τ).loc main_arg1)))
      (m ((c.tc : Thread nD τ).loc main_arg4)) (m ((c.tc : Thread nD τ).loc main_arg5)) (m ((c.tc : Thread nD τ).loc main_arg1)) := by
  unfold res_main_v90 layer64 hidden Cert.KernelIdeal.HostFns.aggr Cert.KernelIdeal.HostFns.aggrOf Cert.KernelIdeal.HostFns.tgtIdx
    Cert.KernelIdeal.HostFns.srcSel Cert.KernelIdeal.HostFns.srcIdx Cert.KernelIdeal.HostFns.edgeNorm
  rfl

set_option maxHeartbeats 4000000 in
/-- The second result (the log standard deviations): the same with the seventh and eighth arguments. -/
theorem res_ls (m : (ℓ : Loc nD τ sig) → Buf (Elt F) ℓ) (c : Dev nD) :
    res_main_v133 m c = layer64
      (hidden (m ((c.tc : Thread nD τ).loc main_arg0)) (m ((c.tc : Thread nD τ).loc main_arg2)) (m ((c.tc : Thread nD τ).loc main_arg3))
        (m ((c.tc : Thread nD τ).loc main_arg1)))
      (m ((c.tc : Thread nD τ).loc main_arg6)) (m ((c.tc : Thread nD τ).loc main_arg7)) (m ((c.tc : Thread nD τ).loc main_arg1)) := by
  unfold res_main_v133 layer64 hidden Cert.KernelIdeal.HostFns.aggr Cert.KernelIdeal.HostFns.aggrOf Cert.KernelIdeal.HostFns.tgtIdx
    Cert.KernelIdeal.HostFns.srcSel Cert.KernelIdeal.HostFns.srcIdx Cert.KernelIdeal.HostFns.edgeNorm
  rfl

end Cert.ReferenceIdeal.RefFns

end
-- ==== Proof.KernelRun.lean ====
/-
  The idealized kernel program's run with its two results NAMED. The program is four kernel launches among
  stretches of host operations; the contents of every buffer at each boundary between them is a fold from the
  launch memory (a host stretch applies its operations; a launch leaves its arrays at what its write-backs leave
  and every other buffer as it was). Every weakly fair execution terminates, nothing faults, and in the final state
  each buffer holds the last fold's value: here that is read at the two result buffers as well as at the eight
  argument buffers, so that the results' values can be computed from the fold.
-/
import proofs.«118369_j9783935500965_1_alg».proof.Proof.Gen.KernelIdeal.Frame

set_option maxRecDepth 16384

noncomputable section

namespace Cert.KernelIdeal.RunValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and in
    every final state the two result buffers hold the last boundary's contents (the fold `W11`) and the arguments are
    as launched. -/
theorem run_outputs : θ_run defs (onTc (τ := τ) (main (F := F))) ⟨m, fun _ => 0, ρ⟩ (fun r => ∀ c : Dev nD,
      r.2.mem ((c.tc : Thread nD τ).loc main_v64) = W11 m ρ c (Proc.devRef .tc main_v64)
      ∧ r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunValues

end
-- ==== Proof.Spec.lean ====
/-
  The three dense pieces of a two-layer graph convolution, as functions on the extended reals, index by index.
  A layer is: a dense product x·W, an aggregation along the graph's edges, a bias added to every row, and (first
  layer only) a maximum with zero. The dense product and the two bias forms are what the four kernel launches
  compute; they are stated here once, over any extents, so that a launch's blocks and the reference's whole-array
  operations can both be compared with them.
-/
import Idealize.ShloMosaic.PureOps.Ideal
import Idealize.ShloMosaic.Lib.ValueIdx

noncomputable section

namespace Cert.Gcn

open Idealize.ShloMosaic Idealize.ShloMosaic.ValueIdx

/-- The product of an [N, K] matrix with a [K, M] matrix: entry (r, c) is the sum over k of x[r, k] · w[k, c]. -/
def mm {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 (i 0) k) * w (ix2 k (i 1))

/-- A [1, M] row added to every row of an [N, M] matrix: entry (r, c) is a[r, c] + b[0, c]. -/
def addRow {N M : Nat} (a : (⟨2, ![N, M]⟩ : Shape).Idx → EReal) (b : (⟨2, ![1, M]⟩ : Shape).Idx → EReal) :
    (⟨2, ![N, M]⟩ : Shape).Idx → EReal :=
  fun i => a i + b (ix2 (0 : Fin 1) (i 1))

/-- The same followed by the maximum with the float zero: entry (r, c) is max (a[r, c] + b[0, c]) 0. The zero is kept
    as the float word it is printed with on both sides; it is never evaluated. -/
def addRowRelu {N M : Nat} (a : (⟨2, ![N, M]⟩ : Shape).Idx → EReal) (b : (⟨2, ![1, M]⟩ : Shape).Idx → EReal) :
    (⟨2, ![N, M]⟩ : Shape).Idx → EReal :=
  fun i => max (a i + b (ix2 (0 : Fin 1) (i 1))) (Ideal.ofBits .f32 0x00000000#32)

theorem mm_apply {N K M : Nat} (x : (⟨2, ![N, K]⟩ : Shape).Idx → EReal) (w : (⟨2, ![K, M]⟩ : Shape).Idx → EReal)
    (r : Fin N) (c : Fin M) : mm x w (ix2 r c) = ∑ k : Fin K, x (ix2 r k) * w (ix2 k c) := rfl

theorem addRow_apply {N M : Nat} (a : (⟨2, ![N, M]⟩ : Shape).Idx → EReal) (b : (⟨2, ![1, M]⟩ : Shape).Idx → EReal)
    (r : Fin N) (c : Fin M) : addRow a b (ix2 r c) = a (ix2 r c) + b (ix2 (0 : Fin 1) c) := rfl

theorem addRowRelu_apply {N M : Nat} (a : (⟨2, ![N, M]⟩ : Shape).Idx → EReal) (b : (⟨2, ![1, M]⟩ : Shape).Idx → EReal)
    (r : Fin N) (c : Fin M) :
    addRowRelu a b (ix2 r c) = max (a (ix2 r c) + b (ix2 (0 : Fin 1) c)) (Ideal.ofBits .f32 0x00000000#32) := rfl

end Cert.Gcn

end
-- ==== Proof.KernelFns.lean ====
/-
  The kernel program's two results as functions of its arguments, at the exact values. The hidden layer is the first
  launch's product x · W₁, aggregated along the edges, then the second launch's bias row and maximum with zero. The
  output stacks the two weight matrices side by side into one [128, 128] matrix and the two biases into one [128]
  vector, takes the third launch's product of the hidden layer with the stacked weights, aggregates it, and adds the
  stacked bias row in the fourth launch; the means are its columns 0 … 63 and the log standard deviations its columns
  64 … 127.
-/
import proofs.«118369_j9783935500965_1_alg».proof.Proof.HostFns
import proofs.«118369_j9783935500965_1_alg».proof.Proof.Spec
import Idealize.ShloMosaic.PureOps.Ideal

noncomputable section

namespace Cert.KernelIdeal.KernelFns

open Cert.KernelIdeal Cert.KernelIdeal.Gen Cert.KernelIdeal.HostFns Idealize.ShloMosaic

/-- The hidden layer: max (aggregate (x · W₁) + b₁) 0. -/
def hiddenK (x : FVec Ideal S50000x128 .f32) (w1 : FVec Ideal S128x128 .f32) (b1 : FVec Ideal S128 .f32) (ei : IVec S2x1600000 32) :
    FVec Ideal S50000x128 .f32 :=
  Cert.Gcn.addRowRelu (aggr (F := Ideal) (Cert.Gcn.mm x w1) ei) (shapeCast S1x128 b1 shapeCasts_S128_S1x128)

/-- The fused output layer: aggregate (h · [W_μ | W_σ]) + [b_μ | b_σ], over 128 columns. -/
def outK (h : FVec Ideal S50000x128 .f32) (wmu : FVec Ideal S128x64 .f32) (bmu : FVec Ideal S64 .f32) (wls : FVec Ideal S128x64 .f32)
    (bls : FVec Ideal S64 .f32) (ei : IVec S2x1600000 32) : FVec Ideal S50000x128 .f32 :=
  Cert.Gcn.addRow
    (aggr (F := Ideal)
      (Cert.Gcn.mm h (concatenate S128x128 1 [⟨S128x64, wmu⟩, ⟨S128x64, wls⟩] concatenates_S128x64_S128x64_S128x128_d1)) ei)
    (shapeCast S1x128 (concatenate S128 0 [⟨S64, bmu⟩, ⟨S64, bls⟩] concatenates_S64_S64_S128_d0) shapeCasts_S128_S1x128)

/-- The means: columns 0 … 63 of the fused output. -/
def muK (h : FVec Ideal S50000x128 .f32) (wmu : FVec Ideal S128x64 .f32) (bmu : FVec Ideal S64 .f32) (wls : FVec Ideal S128x64 .f32)
    (bls : FVec Ideal S64 .f32) (ei : IVec S2x1600000 32) : FVec Ideal S50000x64 .f32 :=
  extractStridedSlice S50000x64 ![0, 0] (outK h wmu bmu wls bls ei) slices_S50000x128_S50000x64_0_0

/-- The log standard deviations: columns 64 … 127 of the fused output. -/
def lsK (h : FVec Ideal S50000x128 .f32) (wmu : FVec Ideal S128x64 .f32) (bmu : FVec Ideal S64 .f32) (wls : FVec Ideal S128x64 .f32)
    (bls : FVec Ideal S64 .f32) (ei : IVec S2x1600000 32) : FVec Ideal S50000x64 .f32 :=
  extractStridedSlice S50000x64 ![0, 64] (outK h wmu bmu wls bls ei) slices_S50000x128_S50000x64_0_64

end Cert.KernelIdeal.KernelFns

end
-- ==== Proof.ChainHost.lean ====
/-
  The contents of the kernel program's buffers at the boundaries between its host stretches and its four launches, as
  far as the results depend on them, for any float instance. A host stretch applies its operations to the previous
  boundary's contents; a launch changes only its own arrays. So: the self-looped source and target index lists and the
  edge factors are functions of the edge list alone, fixed before the first launch and never written again; each of
  the two aggregation stretches produces one aggregation step of the preceding launch's output along those arrays, and
  the reshaped bias row; the stretch before the third launch stacks the two weight matrices and the two biases; the last
  stretch slices the fourth launch's output into its two column halves.
-/
import proofs.«118369_j9783935500965_1_alg».proof.Proof.KernelRun
import proofs.«118369_j9783935500965_1_alg».proof.Proof.HostFns
import Idealize.ShloMosaic.Lib.StableHlo.Run
import Idealize.ShloMosaic.PureOps.Ideal

set_option maxRecDepth 16384

noncomputable section

namespace Cert.KernelIdeal.ChainHost

open Idealize.ShloMosaic Idealize.ShloMosaic.TcCoe Idealize.ShloMosaic.Tactic Idealize.SL.Sem Idealize.ShloMosaic.StableHlo
open Cert.KernelIdeal Cert.KernelIdeal.Gen Cert.KernelIdeal.HostFns

variable {F : FTy → Type} [FloatOps F]
variable (m : (ℓ : Loc nD τ sig) → Buf (Elt F) ℓ) (ρ : Dev nD → PrngReg) (c : Dev nD)

/-! ## Before the first launch -/

set_option maxHeartbeats 8000000 in
/-- The self-looped sources. -/
theorem w3_src : (W3 m ρ c (Proc.devRef .tc main_v5) : S1650000.Idx → BitVec 32) = srcIdx (m ((c.tc : Thread nD τ).loc main_arg1)) := by
  show StableHlo.after hostOps0_2 (StableHlo.after hostOps0_1 (StableHlo.after hostOps0 (W0 m ρ c))) (Proc.devRef .tc main_v5) = _
  dsimp only [hostOps0_2, hostOps0_1, hostOps0]
  after_results_simp
  rfl

set_option maxHeartbeats 8000000 in
/-- The self-looped targets. -/
theorem w3_tgt : (W3 m ρ c (Proc.devRef .tc main_v6) : S1650000.Idx → BitVec 32) = tgtIdx (m ((c.tc : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results_simp
  rfl

set_option maxHeartbeats 8000000 in
/-- The edge factors. -/
theorem w3_norm : (W3 m ρ c (Proc.devRef .tc main_v29) : S1650000.Idx → F .f32) = edgeNorm (F := F) (m ((c.tc : Thread nD τ).loc main_arg1)) := by
  show StableHlo.after hostOps0_2 (StableHlo.after hostOps0_1 (StableHlo.after hostOps0 (W0 m ρ c))) (Proc.devRef .tc main_v29) = _
  dsimp only [hostOps0_2, hostOps0_1, hostOps0]
  after_results_simp
  unfold edgeNorm
  rfl

set_option maxHeartbeats 8000000 in
/-- No operation before the first launch writes argument 0. -/
theorem w3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results_simp
  try rfl

set_option maxHeartbeats 8000000 in
/-- No operation before the first launch writes argument 2. -/
theorem w3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results_simp
  try rfl

set_option maxHeartbeats 8000000 in
/-- No operation before the first launch writes argument 3. -/
theorem w3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results_simp
  try rfl

set_option maxHeartbeats 8000000 in
/-- No operation before the first launch writes argument 4. -/
theorem w3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results_simp
  try rfl

set_option maxHeartbeats 8000000 in
/-- No operation before the first launch writes argument 5. -/
theorem w3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results_simp
  try rfl

set_option maxHeartbeats 8000000 in
/-- No operation before the first launch writes argument 6. -/
theorem w3_arg6 : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results_simp
  try rfl

set_option maxHeartbeats 8000000 in
/-- No operation before the first launch writes argument 7. -/
theorem w3_arg7 : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  dsimp only [hostOps0_2, hostOps0_1, hostOps0]
  after_results_simp
  try rfl

/-! ## Across the first launch (it writes only its own three arrays) -/

theorem w4_v5 : W4 m ρ c (Proc.devRef .tc main_v5) = W3 m ρ c (Proc.devRef .tc main_v5) := W4_of_ne m ρ c main_v5 (by decide)
theorem w4_v6 : W4 m ρ c (Proc.devRef .tc main_v6) = W3 m ρ c (Proc.devRef .tc main_v6) := W4_of_ne m ρ c main_v6 (by decide)
theorem w4_v29 : W4 m ρ c (Proc.devRef .tc main_v29) = W3 m ρ c (Proc.devRef .tc main_v29) := W4_of_ne m ρ c main_v29 (by decide)
theorem w4_arg3 : W4 m ρ c (Proc.devRef .tc main_arg3) = W3 m ρ c (Proc.devRef .tc main_arg3) := W4_of_ne m ρ c main_arg3 (by decide)
theorem w4_arg4 : W4 m ρ c (Proc.devRef .tc main_arg4) = W3 m ρ c (Proc.devRef .tc main_arg4) := W4_of_ne m ρ c main_arg4 (by decide)
theorem w4_arg5 : W4 m ρ c (Proc.devRef .tc main_arg5) = W3 m ρ c (Proc.devRef .tc main_arg5) := W4_of_ne m ρ c main_arg5 (by decide)
theorem w4_arg6 : W4 m ρ c (Proc.devRef .tc main_arg6) = W3 m ρ c (Proc.devRef .tc main_arg6) := W4_of_ne m ρ c main_arg6 (by decide)
theorem w4_arg7 : W4 m ρ c (Proc.devRef .tc main_arg7) = W3 m ρ c (Proc.devRef .tc main_arg7) := W4_of_ne m ρ c main_arg7 (by decide)

/-! ## The first aggregation stretch -/

set_option maxHeartbeats 8000000 in
theorem w5_v5 : W5 m ρ c (Proc.devRef .tc main_v5) = W4 m ρ c (Proc.devRef .tc main_v5) := by
  show StableHlo.after hostOps1 (W4 m ρ c) (Proc.devRef .tc main_v5) = _
  dsimp only [hostOps1]
  after_results_simp
  try rfl

set_option maxHeartbeats 8000000 in
theorem w5_v6 : W5 m ρ c (Proc.devRef .tc main_v6) = W4 m ρ c (Proc.devRef .tc main_v6) := by
  show StableHlo.after hostOps1 (W4 m ρ c) (Proc.devRef .tc main_v6) = _
  dsimp only [hostOps1]
  after_results_simp
  try rfl

set_option maxHeartbeats 8000000 in
theorem w5_v29 : W5 m ρ c (Proc.devRef .tc main_v29) = W4 m ρ c (Proc.devRef .tc main_v29) := by
  show StableHlo.after hostOps1 (W4 m ρ c) (Proc.devRef .tc main_v29) = _
  dsimp only [hostOps1]
  after_results_simp
  try rfl

set_option maxHeartbeats 8000000 in
theorem w5_arg4 : W5 m ρ c (Proc.devRef .tc main_arg4) = W4 m ρ c (Proc.devRef .tc main_arg4) := by
  show StableHlo.after hostOps1 (W4 m ρ c) (Proc.devRef .tc main_arg4) = _
  dsimp only [hostOps1]
  after_results_simp
  try rfl

set_option maxHeartbeats 8000000 in
theorem w5_arg5 : W5 m ρ c (Proc.devRef .tc main_arg5) = W4 m ρ c (Proc.devRef .tc main_arg5) := by
  show StableHlo.after hostOps1 (W4 m ρ c) (Proc.devRef .tc main_arg5) = _
  dsimp only [hostOps1]
  after_results_simp
  try rfl

set_option maxHeartbeats 8000000 in
theorem w5_arg6 : W5 m ρ c (Proc.devRef .tc main_arg6) = W4 m ρ c (Proc.devRef .tc main_arg6) := by
  show StableHlo.after hostOps1 (W4 m ρ c) (Proc.devRef .tc main_arg6) = _
  dsimp only [hostOps1]
  after_results_simp
  try rfl

set_option maxHeartbeats 8000000 in
theorem w5_arg7 : W5 m ρ c (Proc.devRef .tc main_arg7) = W4 m ρ c (Proc.devRef .tc main_arg7) := by
  show StableHlo.after hostOps1 (W4 m ρ c) (Proc.devRef .tc main_arg7) = _
  dsimp only [hostOps1]
  after_results_simp
  try rfl

set_option maxHeartbeats 8000000 in
/-- The stretch aggregates the first launch's output along the edge arrays it finds. -/
theorem w5_agg : (W5 m ρ c (Proc.devRef .tc main_v43) : S50000x128.Idx → F .f32)
    = aggrOf (W4 m ρ c (Proc.devRef .tc main_v30)) (W4 m ρ c (Proc.devRef .tc main_v5)) (W4 m ρ c (Proc.devRef .tc main_v6)) (W4 m ρ c (Proc.devRef .tc main_v29)) := by
  show StableHlo.after hostOps1 (W4 m ρ c) (Proc.devRef .tc main_v43) = _
  dsimp only [hostOps1]
  after_results_simp
  unfold aggrOf
  rfl

set_option maxHeartbeats 8000000 in
/-- The first bias as a [1, 128] row. -/
theorem w5_bias : (W5 m ρ c (Proc.devRef .tc main_v44) : S1x128.Idx → F .f32) = shapeCast S1x128 (W4 m ρ c (Proc.devRef .tc main_arg3)) shapeCasts_S128_S1x128 := by
  show StableHlo.after hostOps1 (W4 m ρ c) (Proc.devRef .tc main_v44) = _
  dsimp only [hostOps1]
  after_results_simp
  rfl

/-! ## Across the second launch -/

theorem w6_v5 : W6 m ρ c (Proc.devRef .tc main_v5) = W5 m ρ c (Proc.devRef .tc main_v5) := W6_of_ne m ρ c main_v5 (by decide)
theorem w6_v6 : W6 m ρ c (Proc.devRef .tc main_v6) = W5 m ρ c (Proc.devRef .tc main_v6) := W6_of_ne m ρ c main_v6 (by decide)
theorem w6_v29 : W6 m ρ c (Proc.devRef .tc main_v29) = W5 m ρ c (Proc.devRef .tc main_v29) := W6_of_ne m ρ c main_v29 (by decide)
theorem w6_arg4 : W6 m ρ c (Proc.devRef .tc main_arg4) = W5 m ρ c (Proc.devRef .tc main_arg4) := W6_of_ne m ρ c main_arg4 (by decide)
theorem w6_arg5 : W6 m ρ c (Proc.devRef .tc main_arg5) = W5 m ρ c (Proc.devRef .tc main_arg5) := W6_of_ne m ρ c main_arg5 (by decide)
theorem w6_arg6 : W6 m ρ c (Proc.devRef .tc main_arg6) = W5 m ρ c (Proc.devRef .tc main_arg6) := W6_of_ne m ρ c main_arg6 (by decide)
theorem w6_arg7 : W6 m ρ c (Proc.devRef .tc main_arg7) = W5 m ρ c (Proc.devRef .tc main_arg7) := W6_of_ne m ρ c main_arg7 (by decide)

/-! ## The stacking stretch -/

set_option maxHeartbeats 8000000 in
theorem w7_v5 : W7 m ρ c (Proc.devRef .tc main_v5) = W6 m ρ c (Proc.devRef .tc main_v5) := by
  show StableHlo.after hostOps2 (W6 m ρ c) (Proc.devRef .tc main_v5) = _
  dsimp only [hostOps2]
  after_results_simp
  try rfl

set_option maxHeartbeats 8000000 in
theorem w7_v6 : W7 m ρ c (Proc.devRef .tc main_v6) = W6 m ρ c (Proc.devRef .tc main_v6) := by
  show StableHlo.after hostOps2 (W6 m ρ c) (Proc.devRef .tc main_v6) = _
  dsimp only [hostOps2]
  after_results_simp
  try rfl

set_option maxHeartbeats 8000000 in
theorem w7_v29 : W7 m ρ c (Proc.devRef .tc main_v29) = W6 m ρ c (Proc.devRef .tc main_v29) := by
  show StableHlo.after hostOps2 (W6 m ρ c) (Proc.devRef .tc main_v29) = _
  dsimp only [hostOps2]
  after_results_simp
  try rfl

set_option maxHeartbeats 8000000 in
theorem w7_v45 : W7 m ρ c (Proc.devRef .tc main_v45) = W6 m ρ c (Proc.devRef .tc main_v45) := by
  show StableHlo.after hostOps2 (W6 m ρ c) (Proc.devRef .tc main_v45) = _
  dsimp only [hostOps2]
  after_results_simp
  try rfl

set_option maxHeartbeats 8000000 in
/-- The two weight matrices side by side. -/
theorem w7_wcat : (W7 m ρ c (Proc.devRef .tc main_v46) : S128x128.Idx → F .f32)
    = concatenate S128x128 1 [⟨S128x64, (W6 m ρ c (Proc.devRef .tc main_arg4) : S128x64.Idx → F .f32)⟩, ⟨S128x64, (W6 m ρ c (Proc.devRef .tc main_arg6) : S128x64.Idx → F .f32)⟩]
        concatenates_S128x64_S128x64_S128x128_d1 := by
  show StableHlo.after hostOps2 (W6 m ρ c) (Proc.devRef .tc main_v46) = _
  dsimp only [hostOps2]
  after_results_simp
  try rfl

set_option maxHeartbeats 8000000 in
/-- The two biases end to end. -/
theorem w7_bcat : (W7 m ρ c (Proc.devRef .tc main_v47) : S128.Idx → F .f32)
    = concatenate S128 0 [⟨S64, (W6 m ρ c (Proc.devRef .tc main_arg5) : S64.Idx → F .f32)⟩, ⟨S64, (W6 m ρ c (Proc.devRef .tc main_arg7) : S64.Idx → F .f32)⟩]
        concatenates_S64_S64_S128_d0 := by
  show StableHlo.after hostOps2 (W6 m ρ c) (Proc.devRef .tc main_v47) = _
  dsimp only [hostOps2]
  after_results_simp
  try rfl

/-! ## Across the third launch -/

theorem w8_v5 : W8 m ρ c (Proc.devRef .tc main_v5) = W7 m ρ c (Proc.devRef .tc main_v5) := W8_of_ne m ρ c main_v5 (by decide)
theorem w8_v6 : W8 m ρ c (Proc.devRef .tc main_v6) = W7 m ρ c (Proc.devRef .tc main_v6) := W8_of_ne m ρ c main_v6 (by decide)
theorem w8_v29 : W8 m ρ c (Proc.devRef .tc main_v29) = W7 m ρ c (Proc.devRef .tc main_v29) := W8_of_ne m ρ c main_v29 (by decide)
theorem w8_v47 : W8 m ρ c (Proc.devRef .tc main_v47) = W7 m ρ c (Proc.devRef .tc main_v47) := W8_of_ne m ρ c main_v47 (by decide)

/-! ## The second aggregation stretch -/

set_option maxHeartbeats 8000000 in
/-- The stretch aggregates the third launch's output along the edge arrays it finds. -/
theorem w9_agg : (W9 m ρ c (Proc.devRef .tc main_v61) : S50000x128.Idx → F .f32)
    = aggrOf (W8 m ρ c (Proc.devRef .tc main_v48)) (W8 m ρ c (Proc.devRef .tc main_v5)) (W8 m ρ c (Proc.devRef .tc main_v6)) (W8 m ρ c (Proc.devRef .tc main_v29)) := by
  show StableHlo.after hostOps3 (W8 m ρ c) (Proc.devRef .tc main_v61) = _
  dsimp only [hostOps3]
  after_results_simp
  unfold aggrOf
  rfl

set_option maxHeartbeats 8000000 in
/-- The stacked bias as a [1, 128] row. -/
theorem w9_bias : (W9 m ρ c (Proc.devRef .tc main_v62) : S1x128.Idx → F .f32) = shapeCast S1x128 (W8 m ρ c (Proc.devRef .tc main_v47)) shapeCasts_S128_S1x128 := by
  show StableHlo.after hostOps3 (W8 m ρ c) (Proc.devRef .tc main_v62) = _
  dsimp only [hostOps3]
  after_results_simp
  rfl

/-! ## The last stretch: the two column halves -/

set_option maxHeartbeats 8000000 in
theorem w11_mu : (W11 m ρ c (Proc.devRef .tc main_v64) : S50000x64.Idx → F .f32)
    = extractStridedSlice S50000x64 ![0, 0] (W10 m ρ c (Proc.devRef .tc main_v63)) slices_S50000x128_S50000x64_0_0 := by
  show StableHlo.after hostOps4 (W10 m ρ c) (Proc.devRef .tc main_v64) = _
  dsimp only [hostOps4]
  after_results_simp
  try rfl

set_option maxHeartbeats 8000000 in
theorem w11_ls : (W11 m ρ c (Proc.devRef .tc main_v65) : S50000x64.Idx → F .f32)
    = extractStridedSlice S50000x64 ![0, 64] (W10 m ρ c (Proc.devRef .tc main_v63)) slices_S50000x128_S50000x64_0_64 := by
  show StableHlo.after hostOps4 (W10 m ρ c) (Proc.devRef .tc main_v65) = _
  dsimp only [hostOps4]
  after_results_simp
  try rfl

end Cert.KernelIdeal.ChainHost

end
-- ==== Proof.RegionArrays.lean ====
/-
  The four kernel launches, each as ONE whole-array function of the two arrays it reads.

  Every launch walks a grid of 5 points. At point t it reads rows 10000·t … 10000·t + 9999 of a [50000,128] array
  (all 128 columns), the whole of a small second array (the [128,128] weights, or the [1,128] bias row), and writes
  rows 10000·t … 10000·t + 9999 of a [50000,128] result. The body is a product of the row block with the weights
  (launches 0 and 2), or the bias row added to every row of the block (launch 3), followed by a maximum with zero
  (launch 1). Each entry of a result block depends only on its own row of the input block and on the small array, so
  the block written at point t is rows 10000·t … of one function of the two whole arrays: the dense product, or the
  bias forms, of the specification. The five row blocks tile the 50000 rows (row r lies in block r / 10000), so after
  the launch the result array IS that function of the arrays the launch found.

  First the four bodies at one entry of a block, over any block contents; then, per launch, the index maps over the
  grid, the block a point writes back, the cover of the array by the blocks, and the whole-array statement.
-/
import proofs.«118369_j9783935500965_1_alg».proof.Proof.Gen.KernelIdeal.Frame
import proofs.«118369_j9783935500965_1_alg».proof.Proof.Spec
import Idealize.ShloMosaic.Lib.Pipeline.Value
import Idealize.ShloMosaic.Lib.ValueIdx
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)

/-! ## The four bodies at one index of a block -/

theorem zeroOffsets : (![0, 0] : Fin 2 → Nat) = fun _ => 0 := funext fun a => by fin_cases a <;> rfl

/-- On the output axis that is not contracted, the left operand is read at the output's row. -/
theorem dot_lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- On its contracted axis the left operand is read at the contraction position. -/
theorem dot_lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

/-- On its contracted axis the right operand is read at the contraction position. -/
theorem dot_rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

/-- On the output axis that is not contracted, the right operand is read at the output's column. -/
theorem dot_rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product of a [10000,128] block with the [128,128] weights into the zero accumulator, at entry (p, q):
    the sum over k of x[p, k] · w[k, q]. The contraction's one-axis index set is re-indexed by its coordinate. -/
theorem matmul_zero_apply (x : FVec Ideal S10000x128 .bf16) (w : FVec Ideal S128x128 .bf16) (p : Fin 10000) (q : Fin 128) :
    matmul (F := Ideal) dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact dot_lhs_row _ _
      | ⟨1, _⟩ => exact (dot_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (dot_rhs_row _ _).trans hk
      | ⟨1, _⟩ => exact dot_rhs_col _ _)
  rw [el, er]

/-- Region 0's body at entry (p, q) of a block: the rounding to bf16 is the identity on extended reals, so it is the
    block's row p times the weights' column q. -/
theorem body0_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  exact matmul_zero_apply _ _ p q

/-- Region 2's body is the same product: its two shape casts are to the operands' own shapes. -/
theorem body2_apply (x : Vec Ideal S10000x128 .f32) (w : Vec Ideal S128x128 .f32) (p : Fin 10000) (q : Fin 128) :
    k2_pay1 (F := Ideal) x w (ix2 p q) = ∑ k : Fin 128, x (ix2 p k) * w (ix2 k q) := by
  unfold k2_pay1
  simp only [shapeCast_self]
  exact matmul_zero_apply _ _ p q

/-- The [1,128] bias row broadcast over the block's rows, at entry (p, q): the row's entry q. -/
theorem bias_row_apply (b : Vec Ideal S1x128 .f32) (p : Fin 10000) (q : Fin 128) :
    broadcastTo S10000x128 b broadcasts_S1x128_S10000x128 (ix2 p q) = b (ix2 (0 : Fin 1) q) := by
  refine broadcastTo_apply b broadcasts_S1x128_S10000x128 (ix2 p q) (ix2 (0 : Fin 1) q) fun a => ?_
  match a with
  | ⟨0, _⟩ => rfl
  | ⟨1, _⟩ => rfl

/-- Region 3's body at entry (p, q) of a block: the block's entry plus the bias row's entry q. -/
theorem body3_apply (x : Vec Ideal S10000x128 .f32) (b : Vec Ideal S1x128 .f32) (p : Fin 10000) (q : Fin 128) :
    k3_pay1 (F := Ideal) x b (ix2 p q) = x (ix2 p q) + b (ix2 (0 : Fin 1) q) := by
  unfold k3_pay1
  simp only [shapeCast_self]
  show x (ix2 p q) + broadcastTo S10000x128 b broadcasts_S1x128_S10000x128 (ix2 p q) = _
  rw [bias_row_apply]

/-- Region 1's body is that followed by the maximum with the float zero word, kept as printed. -/
theorem body1_apply (x : Vec Ideal S10000x128 .f32) (b : Vec Ideal S1x128 .f32) (p : Fin 10000) (q : Fin 128) :
    k1_pay1 (F := Ideal) x b (ix2 p q) = max (x (ix2 p q) + b (ix2 (0 : Fin 1) q)) (Ideal.ofBits .f32 0x00000000#32) := by
  unfold k1_pay1
  simp only [shapeCast_self]
  show max (x (ix2 p q) + broadcastTo S10000x128 b broadcasts_S1x128_S10000x128 (ix2 p q)) (Ideal.ofBits .f32 0x00000000#32) = _
  rw [bias_row_apply]

/-! ## A block's entries as entries of the whole-array functions

Stated over any block contents `x`, any small array `w` / `b`, and any whole arrays `A`, `W` / `B` of which they are
the rows `10000·t …` and the whole: the entry (p, q) of the body's result is the entry (10000·t + p, q) of the
whole-array function. -/

/-- A row block times the weights is the same rows of the whole product. -/
theorem product_block_entry (x : Vec Ideal S10000x128 .f32) (w : Vec Ideal S128x128 .f32)
    (A : S50000x128.Idx → EReal) (W : S128x128.Idx → EReal) (t : Nat)
    (hx : ∀ (p : Fin 10000) (k : Fin 128) (r : Fin 50000), r.val = t * 10000 + p.val → x (ix2 p k) = A (ix2 r k))
    (hw : ∀ k q : Fin 128, w (ix2 k q) = W (ix2 k q))
    (p : Fin 10000) (q : Fin 128) (r : Fin 50000) (hr : r.val = t * 10000 + p.val) :
    (∑ k : Fin 128, x (ix2 p k) * w (ix2 k q)) = Cert.Gcn.mm A W (ix2 r q) := by
  rw [Cert.Gcn.mm_apply]
  exact Finset.sum_congr rfl fun k _ => by rw [hx p k r hr, hw k q]

/-- A row block plus the bias row is the same rows of the whole array plus the bias row. -/
theorem bias_block_entry (x : Vec Ideal S10000x128 .f32) (b : Vec Ideal S1x128 .f32)
    (A : S50000x128.Idx → EReal) (B : S1x128.Idx → EReal) (t : Nat)
    (hx : ∀ (p : Fin 10000) (k : Fin 128) (r : Fin 50000), r.val = t * 10000 + p.val → x (ix2 p k) = A (ix2 r k))
    (hb : ∀ q : Fin 128, b (ix2 (0 : Fin 1) q) = B (ix2 (0 : Fin 1) q))
    (p : Fin 10000) (q : Fin 128) (r : Fin 50000) (hr : r.val = t * 10000 + p.val) :
    x (ix2 p q) + b (ix2 (0 : Fin 1) q) = Cert.Gcn.addRow A B (ix2 r q) := by
  rw [Cert.Gcn.addRow_apply, hx p q r hr, hb q]

/-- The same under the maximum with the float zero word. -/
theorem bias_relu_block_entry (x : Vec Ideal S10000x128 .f32) (b : Vec Ideal S1x128 .f32)
    (A : S50000x128.Idx → EReal) (B : S1x128.Idx → EReal) (t : Nat)
    (hx : ∀ (p : Fin 10000) (k : Fin 128) (r : Fin 50000), r.val = t * 10000 + p.val → x (ix2 p k) = A (ix2 r k))
    (hb : ∀ q : Fin 128, b (ix2 (0 : Fin 1) q) = B (ix2 (0 : Fin 1) q))
    (p : Fin 10000) (q : Fin 128) (r : Fin 50000) (hr : r.val = t * 10000 + p.val) :
    max (x (ix2 p q) + b (ix2 (0 : Fin 1) q)) (Ideal.ofBits .f32 0x00000000#32) = Cert.Gcn.addRowRelu A B (ix2 r q) := by
  rw [Cert.Gcn.addRowRelu_apply, hx p q r hr, hb q]

variable (V : (c : Dev nD) → (b : Ref sig .tc) → Buf (Elt Ideal) ((c : Thread nD τ).loc b))

/-! ## Launch 0: the dense product of the first layer -/

/-- The printed index maps over the 5 grid points: the row block and the result block are at block row t, column
    block 0; the weights are always block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 10000·t … 10000·t + 9999 of the product of the two arrays as the launch found them. -/
theorem flushed0 (c : Dev nD) (t : Fin cfg0.N) :
    (dat0 (F := Ideal) V c).flushed 2 t = ((cfg0.win 2).blk t).view.read (Elt Ideal)
      (Cert.Gcn.mm (V c (Pipeline.arrRef spec0 0) : S50000x128.Idx → EReal) (V c (Pipeline.arrRef spec0 1) : S128x128.Idx → EReal)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨e0, e1, e2, e3, e4, e5⟩ := blockIndex0 t
  have ht : t.val < 5 := Nat.lt_of_lt_of_eq t.isLt (N_0 : cfg0.N = 5)
  -- the row block read where the result's rows say
  have hx : ∀ (p : Fin 10000) (k : Fin 128) (r : Fin 50000), r.val = t.val * 10000 + p.val →
      (iblk0 V c 0 t : Vec Ideal S10000x128 .f32) (ix2 p k) = (V c (Pipeline.arrRef spec0 0) : S50000x128.Idx → EReal) (ix2 r k) := by
    intro p k r hr
    show V c (Pipeline.arrRef spec0 0) (((cfg0.win 0).blk t).view.emb (ix2 p k)) = _
    refine congrArg _ (funext fun a => Fin.ext ?_)
    match a with
    | ⟨0, _⟩ => show win0_0.index t (0 : Fin 2) * 10000 + 1 * p.val = r.val; rw [e0, hr]; omega
    | ⟨1, _⟩ => show win0_0.index t (1 : Fin 2) * 128 + 1 * k.val = k.val; rw [e1]; omega
  -- the weights' block is the whole weights
  have hw : ∀ k q : Fin 128, (iblk0 V c 1 t : Vec Ideal S128x128 .f32) (ix2 k q) = (V c (Pipeline.arrRef spec0 1) : S128x128.Idx → EReal) (ix2 k q) := by
    intro k q
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  funext j
  have hj0 : (j 0).val < 10000 := (j 0).isLt
  have hj1 : (j 1).val < 128 := (j 1).isLt
  have hj : j = ix2 (⟨(j 0).val, hj0⟩ : Fin 10000) (⟨(j 1).val, hj1⟩ : Fin 128) :=
    funext fun a => by match a with | ⟨0, _⟩ => rfl | ⟨1, _⟩ => rfl
  have hemb : ((cfg0.win 2).blk t).view.emb j
      = ix2 (⟨t.val * 10000 + (j 0).val, by omega⟩ : Fin 50000) (⟨(j 1).val, hj1⟩ : Fin 128) := by
    funext a; apply Fin.ext
    match a with
    | ⟨0, _⟩ => show win0_2.index t (0 : Fin 2) * 10000 + 1 * (j 0).val = t.val * 10000 + (j 0).val; rw [e4]; omega
    | ⟨1, _⟩ => show win0_2.index t (1 : Fin 2) * 128 + 1 * (j 1).val = (j 1).val; rw [e5]; omega
  show k0_pay1 (F := Ideal) (iblk0 V c 0 t) (iblk0 V c 1 t) j = Cert.Gcn.mm _ _ (((cfg0.win 2).blk t).view.emb j)
  refine (congrArg (k0_pay1 (F := Ideal) (iblk0 V c 0 t) (iblk0 V c 1 t)) hj).trans ?_
  refine (body0_apply _ _ _ _).trans ?_
  refine (product_block_entry _ _ _ _ t.val hx hw _ _ (⟨t.val * 10000 + (j 0).val, by omega⟩ : Fin 50000) rfl).trans ?_
  exact (congrArg (Cert.Gcn.mm _ _) hemb).symm

/-- An index of the result array is in point t's block iff each coordinate is in the block's range on its axis. -/
theorem mem_block0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The five row blocks tile the 50000 rows: row r is in the block of point r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, e4, e5⟩ := blockIndex0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- AFTER LAUNCH 0 the result array is the product of the two arrays the launch found. -/
theorem arr0 (c : Dev nD) :
    (dat0 (F := Ideal) V c).arrAt 2 cfg0.N
      = Cert.Gcn.mm (V c (Pipeline.arrRef spec0 0) : S50000x128.Idx → EReal) (V c (Pipeline.arrRef spec0 1) : S128x128.Idx → EReal) :=
  (dat0 (F := Ideal) V c).arrAt_eq_of_cover 2
    (Cert.Gcn.mm (V c (Pipeline.arrRef spec0 0) : S50000x128.Idx → EReal) (V c (Pipeline.arrRef spec0 1) : S128x128.Idx → EReal))
    (fun t _ => flushed0 V c t) cover0

/-! ## Launch 1: the first layer's bias and maximum with zero -/

/-- The printed index maps over the 5 grid points: the row block and the result block are at block row t, column
    block 0; the bias row is always block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 10000·t … 10000·t + 9999 of "the array plus the bias row, then the maximum with
    zero" of the two arrays as the launch found them. -/
theorem flushed1 (c : Dev nD) (t : Fin cfg1.N) :
    (dat1 (F := Ideal) V c).flushed 2 t = ((cfg1.win 2).blk t).view.read (Elt Ideal)
      (Cert.Gcn.addRowRelu (V c (Pipeline.arrRef spec1 0) : S50000x128.Idx → EReal) (V c (Pipeline.arrRef spec1 1) : S1x128.Idx → EReal)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S1x128) zeroOffsets]
  obtain ⟨e0, e1, e2, e3, e4, e5⟩ := blockIndex1 t
  have ht : t.val < 5 := Nat.lt_of_lt_of_eq t.isLt (N_1 : cfg1.N = 5)
  -- the row block read where the result's rows say
  have hx : ∀ (p : Fin 10000) (k : Fin 128) (r : Fin 50000), r.val = t.val * 10000 + p.val →
      (iblk1 V c 0 t : Vec Ideal S10000x128 .f32) (ix2 p k) = (V c (Pipeline.arrRef spec1 0) : S50000x128.Idx → EReal) (ix2 r k) := by
    intro p k r hr
    show V c (Pipeline.arrRef spec1 0) (((cfg1.win 0).blk t).view.emb (ix2 p k)) = _
    refine congrArg _ (funext fun a => Fin.ext ?_)
    match a with
    | ⟨0, _⟩ => show win1_0.index t (0 : Fin 2) * 10000 + 1 * p.val = r.val; rw [e0, hr]; omega
    | ⟨1, _⟩ => show win1_0.index t (1 : Fin 2) * 128 + 1 * k.val = k.val; rw [e1]; omega
  -- the bias row's block is the whole row
  have hb : ∀ q : Fin 128, (iblk1 V c 1 t : Vec Ideal S1x128 .f32) (ix2 (0 : Fin 1) q) = (V c (Pipeline.arrRef spec1 1) : S1x128.Idx → EReal) (ix2 (0 : Fin 1) q) := by
    intro q
    show V c (Pipeline.arrRef spec1 1) (((cfg1.win 1).blk t).view.emb (ix2 (0 : Fin 1) q)) = _
    refine congrArg _ (funext fun a => Fin.ext ?_)
    match a with
    | ⟨0, _⟩ => show win1_1.index t (0 : Fin 2) * 1 + 1 * 0 = 0; rw [e2]
    | ⟨1, _⟩ => show win1_1.index t (1 : Fin 2) * 128 + 1 * q.val = q.val; rw [e3]; omega
  funext j
  have hj0 : (j 0).val < 10000 := (j 0).isLt
  have hj1 : (j 1).val < 128 := (j 1).isLt
  have hj : j = ix2 (⟨(j 0).val, hj0⟩ : Fin 10000) (⟨(j 1).val, hj1⟩ : Fin 128) :=
    funext fun a => by match a with | ⟨0, _⟩ => rfl | ⟨1, _⟩ => rfl
  have hemb : ((cfg1.win 2).blk t).view.emb j
      = ix2 (⟨t.val * 10000 + (j 0).val, by omega⟩ : Fin 50000) (⟨(j 1).val, hj1⟩ : Fin 128) := by
    funext a; apply Fin.ext
    match a with
    | ⟨0, _⟩ => show win1_2.index t (0 : Fin 2) * 10000 + 1 * (j 0).val = t.val * 10000 + (j 0).val; rw [e4]; omega
    | ⟨1, _⟩ => show win1_2.index t (1 : Fin 2) * 128 + 1 * (j 1).val = (j 1).val; rw [e5]; omega
  show k1_pay1 (F := Ideal) (iblk1 V c 0 t) (iblk1 V c 1 t) j = Cert.Gcn.addRowRelu _ _ (((cfg1.win 2).blk t).view.emb j)
  refine (congrArg (k1_pay1 (F := Ideal) (iblk1 V c 0 t) (iblk1 V c 1 t)) hj).trans ?_
  refine (body1_apply _ _ _ _).trans ?_
  refine (bias_relu_block_entry _ _ _ _ t.val hx hb _ _ (⟨t.val * 10000 + (j 0).val, by omega⟩ : Fin 50000) rfl).trans ?_
  exact (congrArg (Cert.Gcn.addRowRelu _ _) hemb).symm

/-- An index of the result array is in point t's block iff each coordinate is in the block's range on its axis. -/
theorem mem_block1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The five row blocks tile the 50000 rows: row r is in the block of point r / 10000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, e4, e5⟩ := blockIndex1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 128 ≤ (i 1).val ∧ (i 1).val < win1_2.index t (1 : Fin 2) * 128 + 128; rw [e5]; omega

/-- AFTER LAUNCH 1 the result array is the array the launch found plus the bias row, under the maximum with zero. -/
theorem arr1 (c : Dev nD) :
    (dat1 (F := Ideal) V c).arrAt 2 cfg1.N
      = Cert.Gcn.addRowRelu (V c (Pipeline.arrRef spec1 0) : S50000x128.Idx → EReal) (V c (Pipeline.arrRef spec1 1) : S1x128.Idx → EReal) :=
  (dat1 (F := Ideal) V c).arrAt_eq_of_cover 2
    (Cert.Gcn.addRowRelu (V c (Pipeline.arrRef spec1 0) : S50000x128.Idx → EReal) (V c (Pipeline.arrRef spec1 1) : S1x128.Idx → EReal))
    (fun t _ => flushed1 V c t) cover1

/-! ## Launch 2: the dense product of the second layer -/

/-- The printed index maps over the 5 grid points: the row block and the result block are at block row t, column
    block 0; the weights are always block (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 10000·t … 10000·t + 9999 of the product of the two arrays as the launch found them. -/
theorem flushed2 (c : Dev nD) (t : Fin cfg2.N) :
    (dat2 (F := Ideal) V c).flushed 2 t = ((cfg2.win 2).blk t).view.read (Elt Ideal)
      (Cert.Gcn.mm (V c (Pipeline.arrRef spec2 0) : S50000x128.Idx → EReal) (V c (Pipeline.arrRef spec2 1) : S128x128.Idx → EReal)) := by
  show (cfg2.win 2).cut (grid2.coords t) ((dat2 V c).after 2 t) = _
  rw [after2_2]
  unfold out2_2
  rw [View.canon_unit_zero zeroOffsets]
  simp only [View.ld_unit_zero (S := S10000x128) zeroOffsets, View.ld_unit_zero (S := S128x128) zeroOffsets]
  obtain ⟨e0, e1, e2, e3, e4, e5⟩ := blockIndex2 t
  have ht : t.val < 5 := Nat.lt_of_lt_of_eq t.isLt (N_2 : cfg2.N = 5)
  -- the row block read where the result's rows say
  have hx : ∀ (p : Fin 10000) (k : Fin 128) (r : Fin 50000), r.val = t.val * 10000 + p.val →
      (iblk2 V c 0 t : Vec Ideal S10000x128 .f32) (ix2 p k) = (V c (Pipeline.arrRef spec2 0) : S50000x128.Idx → EReal) (ix2 r k) := by
    intro p k r hr
    show V c (Pipeline.arrRef spec2 0) (((cfg2.win 0).blk t).view.emb (ix2 p k)) = _
    refine congrArg _ (funext fun a => Fin.ext ?_)
    match a with
    | ⟨0, _⟩ => show win2_0.index t (0 : Fin 2) * 10000 + 1 * p.val = r.val; rw [e0, hr]; omega
    | ⟨1, _⟩ => show win2_0.index t (1 : Fin 2) * 128 + 1 * k.val = k.val; rw [e1]; omega
  -- the weights' block is the whole weights
  have hw : ∀ k q : Fin 128, (iblk2 V c 1 t : Vec Ideal S128x128 .f32) (ix2 k q) = (V c (Pipeline.arrRef spec2 1) : S128x128.Idx → EReal) (ix2 k q) := by
    intro k q
    show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  funext j
  have hj0 : (j 0).val < 10000 := (j 0).isLt
  have hj1 : (j 1).val < 128 := (j 1).isLt
  have hj : j = ix2 (⟨(j 0).val, hj0⟩ : Fin 10000) (⟨(j 1).val, hj1⟩ : Fin 128) :=
    funext fun a => by match a with | ⟨0, _⟩ => rfl | ⟨1, _⟩ => rfl
  have hemb : ((cfg2.win 2).blk t).view.emb j
      = ix2 (⟨t.val * 10000 + (j 0).val, by omega⟩ : Fin 50000) (⟨(j 1).val, hj1⟩ : Fin 128) := by
    funext a; apply Fin.ext
    match a with
    | ⟨0, _⟩ => show win2_2.index t (0 : Fin 2) * 10000 + 1 * (j 0).val = t.val * 10000 + (j 0).val; rw [e4]; omega
    | ⟨1, _⟩ => show win2_2.index t (1 : Fin 2) * 128 + 1 * (j 1).val = (j 1).val; rw [e5]; omega
  show k2_pay1 (F := Ideal) (iblk2 V c 0 t) (iblk2 V c 1 t) j = Cert.Gcn.mm _ _ (((cfg2.win 2).blk t).view.emb j)
  refine (congrArg (k2_pay1 (F := Ideal) (iblk2 V c 0 t) (iblk2 V c 1 t)) hj).trans ?_
  refine (body2_apply _ _ _ _).trans ?_
  refine (product_block_entry _ _ _ _ t.val hx hw _ _ (⟨t.val * 10000 + (j 0).val, by omega⟩ : Fin 50000) rfl).trans ?_
  exact (congrArg (Cert.Gcn.mm _ _) hemb).symm

/-- An index of the result array is in point t's block iff each coordinate is in the block's range on its axis. -/
theorem mem_block2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- The five row blocks tile the 50000 rows: row r is in the block of point r / 10000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  obtain ⟨t, ht⟩ : ∃ t : Fin cfg2.N, t.val = (i 0).val / 10000 := ⟨⟨(i 0).val / 10000, by rw [hN]; omega⟩, rfl⟩
  obtain ⟨-, -, -, -, e4, e5⟩ := blockIndex2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 128 ≤ (i 1).val ∧ (i 1).val < win2_2.index t (1 : Fin 2) * 128 + 128; rw [e5]; omega

/-- AFTER LAUNCH 2 the result array is the product of the two arrays the launch found. -/
theorem arr2 (c : Dev nD) :
    (dat2 (F := Ideal) V c).arrAt 2 cfg2.N
      = Cert.Gcn.mm (V c (Pipeline.arrRef spec2 0) : S50000x128.Idx → EReal) (V c (Pipeline.arrRef spec2 1) : S128x128.Idx → EReal) :=
  (dat2 (F := Ideal) V c).arrAt_eq_of_cover 2
    (Cert.Gcn.mm (V c (Pipeline.arrRef spec2 0) : S50000x128.Idx → EReal) (V c (Pipeline.arrRef spec2 1) : S128x128.Idx → EReal))
    (fun t _ => flushed2 V c t) cover2

/-! ## Launch 3: the second layer's bias -/

/-- The printed index maps over the 5 grid points: the row block and the result block are at block row t, column
    block 0; the bias row is always block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 10000·t … 10000·t + 9999 of "the array plus the bias row" of the two
    arrays as the launch found them. -/
theorem flushed3 (c : Dev nD) (t : Fin cfg3.N) :
    (dat3 (F := Ideal) V c).flushed 2 t = ((cfg3.win 2).blk t).view.read (Elt Ideal)
      (Cert.Gcn.addRow (V c (Pipeline.arrRef spec3 0) : S50000x128.Idx → EReal) (V c (Pipeline.arrRef spec3 1) : S1x128.Idx → EReal)) := by
  show (cfg3.win 2).cut (grid3.coords t) ((dat3 V c).after 2 t) = _
  rw [after3_2]
  unfold out3_2
  rw [View.canon_unit_zero zeroOffsets]
  simp only [View.ld_unit_zero (S := S10000x128) zeroOffsets, View.ld_unit_zero (S := S1x128) zeroOffsets]
  obtain ⟨e0, e1, e2, e3, e4, e5⟩ := blockIndex3 t
  have ht : t.val < 5 := Nat.lt_of_lt_of_eq t.isLt (N_3 : cfg3.N = 5)
  -- the row block read where the result's rows say
  have hx : ∀ (p : Fin 10000) (k : Fin 128) (r : Fin 50000), r.val = t.val * 10000 + p.val →
      (iblk3 V c 0 t : Vec Ideal S10000x128 .f32) (ix2 p k) = (V c (Pipeline.arrRef spec3 0) : S50000x128.Idx → EReal) (ix2 r k) := by
    intro p k r hr
    show V c (Pipeline.arrRef spec3 0) (((cfg3.win 0).blk t).view.emb (ix2 p k)) = _
    refine congrArg _ (funext fun a => Fin.ext ?_)
    match a with
    | ⟨0, _⟩ => show win3_0.index t (0 : Fin 2) * 10000 + 1 * p.val = r.val; rw [e0, hr]; omega
    | ⟨1, _⟩ => show win3_0.index t (1 : Fin 2) * 128 + 1 * k.val = k.val; rw [e1]; omega
  -- the bias row's block is the whole row
  have hb : ∀ q : Fin 128, (iblk3 V c 1 t : Vec Ideal S1x128 .f32) (ix2 (0 : Fin 1) q) = (V c (Pipeline.arrRef spec3 1) : S1x128.Idx → EReal) (ix2 (0 : Fin 1) q) := by
    intro q
    show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; rw [e2]
    | ⟨1, _⟩ => show win3_1.index t (1 : Fin 2) * 128 + 1 * q.val = q.val; rw [e3]; omega
  funext j
  have hj0 : (j 0).val < 10000 := (j 0).isLt
  have hj1 : (j 1).val < 128 := (j 1).isLt
  have hj : j = ix2 (⟨(j 0).val, hj0⟩ : Fin 10000) (⟨(j 1).val, hj1⟩ : Fin 128) :=
    funext fun a => by match a with | ⟨0, _⟩ => rfl | ⟨1, _⟩ => rfl
  have hemb : ((cfg3.win 2).blk t).view.emb j
      = ix2 (⟨t.val * 10000 + (j 0).val, by omega⟩ : Fin 50000) (⟨(j 1).val, hj1⟩ : Fin 128) := by
    funext a; apply Fin.ext
    match a with
    | ⟨0, _⟩ => show win3_2.index t (0 : Fin 2) * 10000 + 1 * (j 0).val = t.val * 10000 + (j 0).val; rw [e4]; omega
    | ⟨1, _⟩ => show win3_2.index t (1 : Fin 2) * 128 + 1 * (j 1).val = (j 1).val; rw [e5]; omega
  show k3_pay1 (F := Ideal) (iblk3 V c 0 t) (iblk3 V c 1 t) j = Cert.Gcn.addRow _ _ (((cfg3.win 2).blk t).view.emb j)
  refine (congrArg (k3_pay1 (F := Ideal) (iblk3 V c 0 t) (iblk3 V c 1 t)) hj).trans ?_
  refine (body3_apply _ _ _ _).trans ?_
  refine (bias_block_entry _ _ _ _ t.val hx hb _ _ (⟨t.val * 10000 + (j 0).val, by omega⟩ : Fin 50000) rfl).trans ?_
  exact (congrArg (Cert.Gcn.addRow _ _) hemb).symm

/-- An index of the result array is in point t's block iff each coordinate is in the block's range on its axis. -/
theorem mem_block3 (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- The five row blocks tile the 50000 rows: row r is in the block of point r / 10000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  obtain ⟨t, ht⟩ : ∃ t : Fin cfg3.N, t.val = (i 0).val / 10000 := ⟨⟨(i 0).val / 10000, by rw [hN]; omega⟩, rfl⟩
  obtain ⟨-, -, -, -, e4, e5⟩ := blockIndex3 t
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 128 ≤ (i 1).val ∧ (i 1).val < win3_2.index t (1 : Fin 2) * 128 + 128; rw [e5]; omega

/-- AFTER LAUNCH 3 the result array is the array the launch found plus the bias row. -/
theorem arr3 (c : Dev nD) :
    (dat3 (F := Ideal) V c).arrAt 2 cfg3.N
      = Cert.Gcn.addRow (V c (Pipeline.arrRef spec3 0) : S50000x128.Idx → EReal) (V c (Pipeline.arrRef spec3 1) : S1x128.Idx → EReal) :=
  (dat3 (F := Ideal) V c).arrAt_eq_of_cover 2
    (Cert.Gcn.addRow (V c (Pipeline.arrRef spec3 0) : S50000x128.Idx → EReal) (V c (Pipeline.arrRef spec3 1) : S1x128.Idx → EReal))
    (fun t _ => flushed3 V c t) cover3

end Cert.KernelIdeal.RegionArrays

end
-- ==== Proof.ChainValue.lean ====
/-
  The kernel program's two results computed from the boundary contents, at the exact values. Walking the boundaries in
  order: the first launch leaves x · W₁ in its output array; the first aggregation stretch turns it into the aggregated
  matrix and reshapes the bias; the second launch leaves the hidden layer; the stacking stretch builds [W_μ | W_σ] and
  [b_μ | b_σ]; the third launch leaves the hidden layer times the stacked weights; the second aggregation stretch
  aggregates that and reshapes the stacked bias; the fourth launch adds it; the last stretch takes the two column
  halves. Each launch's output array is the whole-array function of its two input arrays as the launch found them, and
  those are the previous step's values; the edge arrays and the arguments reach every later boundary unchanged.
-/
import proofs.«118369_j9783935500965_1_alg».proof.Proof.KernelRun
import proofs.«118369_j9783935500965_1_alg».proof.Proof.KernelFns
import proofs.«118369_j9783935500965_1_alg».proof.Proof.ChainHost
import proofs.«118369_j9783935500965_1_alg».proof.Proof.RegionArrays

set_option maxRecDepth 16384

noncomputable section

namespace Cert.KernelIdeal.ChainValue

open Idealize.ShloMosaic Idealize.ShloMosaic.TcCoe Idealize.SL.Sem
open Cert.KernelIdeal Cert.KernelIdeal.Gen Cert.KernelIdeal.HostFns Cert.KernelIdeal.KernelFns Cert.KernelIdeal.ChainHost
open Cert.KernelIdeal.RegionArrays

variable (m : (ℓ : Loc nD τ sig) → Buf (Elt Ideal) ℓ) (ρ : Dev nD → PrngReg) (c : Dev nD)

/-! ## The edge arrays where the two aggregation stretches read them -/

theorem src4 : (W4 m ρ c (Proc.devRef .tc main_v5) : S1650000.Idx → BitVec 32) = srcIdx (m ((c.tc : Thread nD τ).loc main_arg1)) := (w4_v5 m ρ c).trans (w3_src m ρ c)
theorem tgt4 : (W4 m ρ c (Proc.devRef .tc main_v6) : S1650000.Idx → BitVec 32) = tgtIdx (m ((c.tc : Thread nD τ).loc main_arg1)) := (w4_v6 m ρ c).trans (w3_tgt m ρ c)
theorem norm4 : (W4 m ρ c (Proc.devRef .tc main_v29) : S1650000.Idx → EReal) = edgeNorm (F := Ideal) (m ((c.tc : Thread nD τ).loc main_arg1)) := (w4_v29 m ρ c).trans (w3_norm m ρ c)
theorem src8 : (W8 m ρ c (Proc.devRef .tc main_v5) : S1650000.Idx → BitVec 32) = srcIdx (m ((c.tc : Thread nD τ).loc main_arg1)) :=
  (w8_v5 m ρ c).trans ((w7_v5 m ρ c).trans ((w6_v5 m ρ c).trans ((w5_v5 m ρ c).trans ((w4_v5 m ρ c).trans (w3_src m ρ c)))))
theorem tgt8 : (W8 m ρ c (Proc.devRef .tc main_v6) : S1650000.Idx → BitVec 32) = tgtIdx (m ((c.tc : Thread nD τ).loc main_arg1)) :=
  (w8_v6 m ρ c).trans ((w7_v6 m ρ c).trans ((w6_v6 m ρ c).trans ((w5_v6 m ρ c).trans ((w4_v6 m ρ c).trans (w3_tgt m ρ c)))))
theorem norm8 : (W8 m ρ c (Proc.devRef .tc main_v29) : S1650000.Idx → EReal) = edgeNorm (F := Ideal) (m ((c.tc : Thread nD τ).loc main_arg1)) :=
  (w8_v29 m ρ c).trans ((w7_v29 m ρ c).trans ((w6_v29 m ρ c).trans ((w5_v29 m ρ c).trans ((w4_v29 m ρ c).trans (w3_norm m ρ c)))))

/-! ## The first layer -/

/-- After the first launch its output array holds x · W₁. -/
theorem prod4 : (W4 m ρ c (Proc.devRef .tc main_v30) : S50000x128.Idx → EReal) = Cert.Gcn.mm (m ((c.tc : Thread nD τ).loc main_arg0)) (m ((c.tc : Thread nD τ).loc main_arg2)) :=
  (W4_arr m ρ c 2).trans ((arr0 (V3 m ρ) c).trans (congrArg₂ Cert.Gcn.mm (w3_arg0 m ρ c) (w3_arg2 m ρ c)))

theorem agg5 : (W5 m ρ c (Proc.devRef .tc main_v43) : S50000x128.Idx → EReal) = aggr (F := Ideal) (Cert.Gcn.mm (m ((c.tc : Thread nD τ).loc main_arg0)) (m ((c.tc : Thread nD τ).loc main_arg2))) (m ((c.tc : Thread nD τ).loc main_arg1)) :=
  (w5_agg m ρ c).trans (by rw [prod4 m ρ c, src4 m ρ c, tgt4 m ρ c, norm4 m ρ c]; rfl)

theorem bias5 : (W5 m ρ c (Proc.devRef .tc main_v44) : S1x128.Idx → EReal) = shapeCast S1x128 (m ((c.tc : Thread nD τ).loc main_arg3)) shapeCasts_S128_S1x128 :=
  (w5_bias m ρ c).trans (by rw [(w4_arg3 m ρ c).trans (w3_arg3 m ρ c)])

/-- After the second launch its output array holds the hidden layer. -/
theorem hid6 : (W6 m ρ c (Proc.devRef .tc main_v45) : S50000x128.Idx → EReal) = (hiddenK (m ((c.tc : Thread nD τ).loc main_arg0)) (m ((c.tc : Thread nD τ).loc main_arg2)) (m ((c.tc : Thread nD τ).loc main_arg3)) (m ((c.tc : Thread nD τ).loc main_arg1))) :=
  (W6_arr m ρ c 2).trans ((arr1 (V5 m ρ) c).trans (congrArg₂ Cert.Gcn.addRowRelu (agg5 m ρ c) (bias5 m ρ c)))

/-! ## The second layer -/
theorem arg4_6 : W6 m ρ c (Proc.devRef .tc main_arg4) = m ((c.tc : Thread nD τ).loc main_arg4) :=
  (w6_arg4 m ρ c).trans ((w5_arg4 m ρ c).trans ((w4_arg4 m ρ c).trans (w3_arg4 m ρ c)))
theorem arg5_6 : W6 m ρ c (Proc.devRef .tc main_arg5) = m ((c.tc : Thread nD τ).loc main_arg5) :=
  (w6_arg5 m ρ c).trans ((w5_arg5 m ρ c).trans ((w4_arg5 m ρ c).trans (w3_arg5 m ρ c)))
theorem arg6_6 : W6 m ρ c (Proc.devRef .tc main_arg6) = m ((c.tc : Thread nD τ).loc main_arg6) :=
  (w6_arg6 m ρ c).trans ((w5_arg6 m ρ c).trans ((w4_arg6 m ρ c).trans (w3_arg6 m ρ c)))
theorem arg7_6 : W6 m ρ c (Proc.devRef .tc main_arg7) = m ((c.tc : Thread nD τ).loc main_arg7) :=
  (w6_arg7 m ρ c).trans ((w5_arg7 m ρ c).trans ((w4_arg7 m ρ c).trans (w3_arg7 m ρ c)))

theorem wcat7 : (W7 m ρ c (Proc.devRef .tc main_v46) : S128x128.Idx → EReal) = (concatenate S128x128 1 [⟨S128x64, (m ((c.tc : Thread nD τ).loc main_arg4))⟩, ⟨S128x64, (m ((c.tc : Thread nD τ).loc main_arg6))⟩] concatenates_S128x64_S128x64_S128x128_d1) :=
  (w7_wcat m ρ c).trans (by rw [arg4_6 m ρ c, arg6_6 m ρ c])

theorem bcat7 : (W7 m ρ c (Proc.devRef .tc main_v47) : S128.Idx → EReal) = (concatenate S128 0 [⟨S64, (m ((c.tc : Thread nD τ).loc main_arg5))⟩, ⟨S64, (m ((c.tc : Thread nD τ).loc main_arg7))⟩] concatenates_S64_S64_S128_d0) :=
  (w7_bcat m ρ c).trans (by rw [arg5_6 m ρ c, arg7_6 m ρ c])

theorem hid7 : (W7 m ρ c (Proc.devRef .tc main_v45) : S50000x128.Idx → EReal) = (hiddenK (m ((c.tc : Thread nD τ).loc main_arg0)) (m ((c.tc : Thread nD τ).loc main_arg2)) (m ((c.tc : Thread nD τ).loc main_arg3)) (m ((c.tc : Thread nD τ).loc main_arg1))) := (w7_v45 m ρ c).trans (hid6 m ρ c)

/-- After the third launch its output array holds the hidden layer times the stacked weights. -/
theorem prod8 : (W8 m ρ c (Proc.devRef .tc main_v48) : S50000x128.Idx → EReal) = (Cert.Gcn.mm (hiddenK (m ((c.tc : Thread nD τ).loc main_arg0)) (m ((c.tc : Thread nD τ).loc main_arg2)) (m ((c.tc : Thread nD τ).loc main_arg3)) (m ((c.tc : Thread nD τ).loc main_arg1))) (concatenate S128x128 1 [⟨S128x64, (m ((c.tc : Thread nD τ).loc main_arg4))⟩, ⟨S128x64, (m ((c.tc : Thread nD τ).loc main_arg6))⟩] concatenates_S128x64_S128x64_S128x128_d1)) :=
  (W8_arr m ρ c 2).trans ((arr2 (V7 m ρ) c).trans (congrArg₂ Cert.Gcn.mm (hid7 m ρ c) (wcat7 m ρ c)))

theorem agg9 : (W9 m ρ c (Proc.devRef .tc main_v61) : S50000x128.Idx → EReal) = aggr (F := Ideal) (Cert.Gcn.mm (hiddenK (m ((c.tc : Thread nD τ).loc main_arg0)) (m ((c.tc : Thread nD τ).loc main_arg2)) (m ((c.tc : Thread nD τ).loc main_arg3)) (m ((c.tc : Thread nD τ).loc main_arg1))) (concatenate S128x128 1 [⟨S128x64, (m ((c.tc : Thread nD τ).loc main_arg4))⟩, ⟨S128x64, (m ((c.tc : Thread nD τ).loc main_arg6))⟩] concatenates_S128x64_S128x64_S128x128_d1)) (m ((c.tc : Thread nD τ).loc main_arg1)) :=
  (w9_agg m ρ c).trans (by rw [prod8 m ρ c, src8 m ρ c, tgt8 m ρ c, norm8 m ρ c]; rfl)

theorem bcat8 : (W8 m ρ c (Proc.devRef .tc main_v47) : S128.Idx → EReal) = (concatenate S128 0 [⟨S64, (m ((c.tc : Thread nD τ).loc main_arg5))⟩, ⟨S64, (m ((c.tc : Thread nD τ).loc main_arg7))⟩] concatenates_S64_S64_S128_d0) := (w8_v47 m ρ c).trans (bcat7 m ρ c)

theorem bias9 : (W9 m ρ c (Proc.devRef .tc main_v62) : S1x128.Idx → EReal) = shapeCast S1x128 (concatenate S128 0 [⟨S64, (m ((c.tc : Thread nD τ).loc main_arg5))⟩, ⟨S64, (m ((c.tc : Thread nD τ).loc main_arg7))⟩] concatenates_S64_S64_S128_d0) shapeCasts_S128_S1x128 :=
  (w9_bias m ρ c).trans (by rw [bcat8 m ρ c])

/-- After the fourth launch its output array holds the fused output layer. -/
theorem out10 : (W10 m ρ c (Proc.devRef .tc main_v63) : S50000x128.Idx → EReal) = outK (hiddenK (m ((c.tc : Thread nD τ).loc main_arg0)) (m ((c.tc : Thread nD τ).loc main_arg2)) (m ((c.tc : Thread nD τ).loc main_arg3)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg1)) :=
  (W10_arr m ρ c 2).trans ((arr3 (V9 m ρ) c).trans (congrArg₂ Cert.Gcn.addRow (agg9 m ρ c) (bias9 m ρ c)))

/-! ## The two results -/

/-- The first result buffer ends at the means. -/
theorem out_mu : (W11 m ρ c (Proc.devRef .tc main_v64) : S50000x64.Idx → EReal) = muK (hiddenK (m ((c.tc : Thread nD τ).loc main_arg0)) (m ((c.tc : Thread nD τ).loc main_arg2)) (m ((c.tc : Thread nD τ).loc main_arg3)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg1)) :=
  (w11_mu m ρ c).trans (by rw [out10 m ρ c]; rfl)

/-- The second result buffer ends at the log standard deviations. -/
theorem out_ls : (W11 m ρ c (Proc.devRef .tc main_v65) : S50000x64.Idx → EReal) = lsK (hiddenK (m ((c.tc : Thread nD τ).loc main_arg0)) (m ((c.tc : Thread nD τ).loc main_arg2)) (m ((c.tc : Thread nD τ).loc main_arg3)) (m ((c.tc : Thread nD τ).loc main_arg1))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg1)) :=
  (w11_ls m ρ c).trans (by rw [out10 m ρ c]; rfl)

end Cert.KernelIdeal.ChainValue

end
-- ==== Proof.RefDense.lean ====
/-
  The reference's two dense products at the exact values. The host's dot_general contracts the second axis of its left
  operand with the first axis of its right operand; read at an index it is the sum over the contracted shape of the
  products of the operands at the dot's operand indices, and the contracted shape has one axis of extent 128, so the
  sum is over k = 0 … 127 of x[r, k] · w[k, c]: the matrix product of the specification.
-/
import proofs.«118369_j9783935500965_1_alg».proof.Proof.Gen.ReferenceIdeal
import proofs.«118369_j9783935500965_1_alg».proof.Proof.Spec
import Idealize.ShloMosaic.PureOps.Ideal.Laws
import Idealize.ShloMosaic.Lib.ValueIdx

set_option maxRecDepth 8192

noncomputable section

namespace Cert.ReferenceIdeal.RefDense

open Cert.ReferenceIdeal Cert.ReferenceIdeal.Gen Idealize.ShloMosaic Idealize.ShloMosaic.ValueIdx

/-! ### The host product S50000x128 · S128x128 -/

theorem dotA_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dotA_lhs1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem dotA_rhs0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem dotA_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- At the exact values the host's dot_general of an [N, 128] by a [128, M] matrix is the matrix product: entry (r, c)
    is the sum over the 128 contracted coordinates of x[r, k] · w[k, c]. -/
theorem dotA_eq (x : FVec Ideal S50000x128 .f32) (w : FVec Ideal S128x128 .f32) :
    Host.dotGeneral (F := Ideal) dot_S50000x128_S128x128_S50000x128_1_0_0_1_n_n none x w = Cert.Gcn.mm x w := by
  funext i
  simp only [Host.dotGeneral]
  rw [Ideal.dotGeneral_apply, ← Equiv.sum_comp (ValueIdx.contrEquiv1 dot_S50000x128_S128x128_S50000x128_1_0_0_1_n_n 128 rfl rfl).symm]
  unfold Cert.Gcn.mm
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k := funext fun a => Fin.ext (by
    match a with
    | ⟨0, _⟩ => exact dotA_lhs0 _ _
    | ⟨1, _⟩ => exact (dotA_lhs1 _ _).trans hk)
  have er : dot_S50000x128_S128x128_S50000x128_1_0_0_1_n_n.rhsIdx i ((ValueIdx.contrEquiv1 dot_S50000x128_S128x128_S50000x128_1_0_0_1_n_n 128 rfl rfl).symm k) = ix2 k (i 1) := funext fun a => Fin.ext (by
    match a with
    | ⟨0, _⟩ => exact (dotA_rhs0 _ _).trans hk
    | ⟨1, _⟩ => exact dotA_rhs1 _ _)
  rw [el, er]
  rfl

/-! ### The host product S50000x128 · S128x64 -/

theorem dotB_lhs0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dotB_lhs1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem dotB_rhs0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem dotB_rhs1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- At the exact values the host's dot_general of an [N, 128] by a [128, M] matrix is the matrix product: entry (r, c)
    is the sum over the 128 contracted coordinates of x[r, k] · w[k, c]. -/
theorem dotB_eq (x : FVec Ideal S50000x128 .f32) (w : FVec Ideal S128x64 .f32) :
    Host.dotGeneral (F := Ideal) dot_S50000x128_S128x64_S50000x64_1_0_0_1_n_n none x w = Cert.Gcn.mm x w := by
  funext i
  simp only [Host.dotGeneral]
  rw [Ideal.dotGeneral_apply, ← Equiv.sum_comp (ValueIdx.contrEquiv1 dot_S50000x128_S128x64_S50000x64_1_0_0_1_n_n 128 rfl rfl).symm]
  unfold Cert.Gcn.mm
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (i 0) k := funext fun a => Fin.ext (by
    match a with
    | ⟨0, _⟩ => exact dotB_lhs0 _ _
    | ⟨1, _⟩ => exact (dotB_lhs1 _ _).trans hk)
  have er : dot_S50000x128_S128x64_S50000x64_1_0_0_1_n_n.rhsIdx i ((ValueIdx.contrEquiv1 dot_S50000x128_S128x64_S50000x64_1_0_0_1_n_n 128 rfl rfl).symm k) = ix2 k (i 1) := funext fun a => Fin.ext (by
    match a with
    | ⟨0, _⟩ => exact (dotB_rhs0 _ _).trans hk
    | ⟨1, _⟩ => exact dotB_rhs1 _ _)
  rw [el, er]
  rfl

end Cert.ReferenceIdeal.RefDense

end
-- ==== Proof.LibRowGatherScatter.lean ====
/-
  ROW GATHER AND ROW SCATTER-ADD OF A MATRIX, READ AT AN INDEX.

  A matrix `x : [N, C]` is gathered by rows at an index column `idx : [E, 1]` (result `[E, C]`: row `e` of the
  result is row `idx[e, 0]` of `x`, the row number read signed and clamped into `[0, N − 1]`), and a matrix of
  updates `upd : [E, C]` is scatter-added by rows into `x : [N, C]` at an index column `idx : [E, 1]` (row `n`
  of the result is row `n` of `x` plus the sum of the update rows `e` whose index `idx[e, 0]`, read signed, is
  `n`; an update whose index is outside `[0, N)` is dropped). Both hold for every column count `C`, column by
  column: column `c` of the result only reads column `c` of the operands.
-/
import Idealize.ShloMosaic.Lib.ValueIdx

noncomputable section

open scoped BigOperators

namespace Idealize.ShloMosaic.RowOps

open Idealize.ShloMosaic Idealize.ShloMosaic.ValueIdx

/-! ## Gather of rows -/

section Gather
variable {α : Type}

/-- The dimension numbers of a gather of whole rows: operand `[N, C]`, start indices `[E, 1]` (one row number per
    result row, the index vector along axis 1), result `[E, C]`; the row axis of the operand is collapsed (slice
    size 1) and addressed by the start index, the column axis is the result's offset axis (slice size `C`). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Of the two axes of a matrix, the ones other than the row axis: the column axis alone. -/
theorem keptRow : (List.finRange 2).filter (· ∉ ([0] ++ [] : List (Fin 2))) = [1] := by decide

/-- THE ROW GATHER READ AT `(e, c)`: the operand at row `idx[e, 0]` (read signed and clamped into `[0, N − 1]`)
    and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    have h10 : (1 : Fin 2) ∉ ([0] : List (Fin 2)) := by decide
    rw [dif_neg (show (1 : Fin 2) ∉ (rowGatherDims N E C wf).startIndexMap from h10)]
    have hsk : (rowGatherDims N E C wf).sKept = [1] := keptRow
    have hk : (1 : Fin 2) ∈ (rowGatherDims N E C wf).sKept := by rw [hsk]; exact List.mem_singleton.mpr rfl
    unfold GatherDims.offCoord
    rw [dif_pos hk]
    have hi : List.idxOf (1 : Fin 2) (rowGatherDims N E C wf).sKept = 0 := by rw [hsk]; rfl
    simp only [hi, List.getElem_cons_zero, Nat.zero_add]
    rfl

end Gather

/-! ## Scatter-add of rows -/

section Scatter

/-- The dimension numbers of a scatter of whole rows: operand `[N, C]`, scatter indices `[E, 1]` (one row number per
    update row, the index vector along axis 1), updates `[E, C]`; the row axis of the operand is an inserted window
    axis addressed by the scatter index, the updates' column axis is the window axis and goes to the operand's column
    axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Of the two axes of a matrix, the ones other than the row axis: the column axis alone. -/
theorem keptRow' : (List.finRange 2).filter (· ∉ ([0] : List (Fin 2))) = [1] := by decide

/-- On the row axis the window of update `(e, c)` starts at the row number `idx[e, 0]`, read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter index does not address it. -/
theorem start_col (idx : IVec ⟨2, ![E, 1]⟩ w) (e : Fin E) (c : Fin C) :
    (rowScatterDims N E C wf).start (ix2 e c) idx 1 = 0 := by
  unfold ScatterDims.start
  have h10 : (1 : Fin 2) ∉ ([0] : List (Fin 2)) := by decide
  rw [dif_neg (show (1 : Fin 2) ∉ (rowScatterDims N E C wf).scatterDimsToOperandDims from h10)]

/-- The row axis is inserted: the window coordinate there is `0`. -/
theorem window_row (e : Fin E) (c : Fin C) : (rowScatterDims N E C wf).window (ix2 e c) 0 = 0 := by
  unfold ScatterDims.window
  have hsk : (rowScatterDims N E C wf).sKept = [1] := keptRow'
  have h01 : (0 : Fin 2) ∉ ([1] : List (Fin 2)) := by decide
  rw [dif_neg (show (0 : Fin 2) ∉ (rowScatterDims N E C wf).sKept by rw [hsk]; exact h01)]

/-- On the column axis the window coordinate of update `(e, c)` is its column `c`. -/
theorem window_col (e : Fin E) (c : Fin C) : (rowScatterDims N E C wf).window (ix2 e c) 1 = c.val := by
  unfold ScatterDims.window
  have hsk : (rowScatterDims N E C wf).sKept = [1] := keptRow'
  have hk : (1 : Fin 2) ∈ (rowScatterDims N E C wf).sKept := by rw [hsk]; exact List.mem_singleton.mpr rfl
  rw [dif_pos hk]
  rfl

/-- WHERE AN UPDATE LANDS: update `(e, c)` lands on operand element `(n, c')` exactly when its row number
    `idx[e, 0]`, read signed, is `n` and the columns agree (a row number outside `[0, N)` lands nowhere). -/
theorem resultIdx?_rows (idx : IVec ⟨2, ![E, 1]⟩ w) (e : Fin E) (c c' : Fin C) (n : Fin N) :
    (rowScatterDims N E C wf).resultIdx? (ix2 e c) idx = some (ix2 n c')
      ↔ (idx (ix2 e 0)).toInt = (n.val : Int) ∧ c = c' := by
  have hs0 := start_row wf idx e c
  have hs1 := start_col wf idx e c
  have hw0 := window_row wf e c
  have hw1 := window_col wf e c
  have hN : (⟨2, ![N, C]⟩ : Shape).size 0 = N := rfl
  have hC : (⟨2, ![N, C]⟩ : Shape).size 1 = C := rfl
  have hn := n.isLt
  have hc := c.isLt
  unfold ScatterDims.resultIdx?
  constructor
  · intro h
    split at h
    · rename_i hb
      have hf := Option.some.inj h
      have h0 : ((rowScatterDims N E C wf).start (ix2 e c) idx 0
          + (rowScatterDims N E C wf).window (ix2 e c) 0).toNat = n.val := congrArg (fun f => (f 0).val) hf
      have h1 : ((rowScatterDims N E C wf).start (ix2 e c) idx 1
          + (rowScatterDims N E C wf).window (ix2 e c) 1).toNat = c'.val := congrArg (fun f => (f 1).val) hf
      have hb0 := (hb 0).1
      rw [hs0, hw0] at h0 hb0
      rw [hs1, hw1] at h1
      exact ⟨by omega, Fin.ext (by omega)⟩
    · exact absurd h (by simp)
  · rintro ⟨hi, rfl⟩
    split
    · congr 1
      funext a; refine Fin.ext ?_
      revert a; refine Fin.forall_fin_two.mpr ⟨?_, ?_⟩
      · show ((rowScatterDims N E C wf).start (ix2 e c) idx 0
          + (rowScatterDims N E C wf).window (ix2 e c) 0).toNat = n.val
        rw [hs0, hw0, hi]; omega
      · show ((rowScatterDims N E C wf).start (ix2 e c) idx 1
          + (rowScatterDims N E C wf).window (ix2 e c) 1).toNat = c.val
        rw [hs1, hw1]; omega
    · rename_i hb
      exfalso; apply hb
      refine Fin.forall_fin_two.mpr ⟨?_, ?_⟩
      · rw [hs0, hw0, hi, hN]; omega
      · rw [hs1, hw1, hC]; omega

/-- THE ROW SCATTER-ADD READ AT `(n, c)`, at the ideal instance: the operand's element plus the sum, over the update
    rows `e` whose row number `idx[e, 0]` (read signed) is `n`, of the update's element in column `c`. The update
    indices landing on `(n, c)` are the `(e, c)` with `idx[e, 0] = n`, so the sum over them is a sum over such `e`. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c) + ∑ e ∈ Finset.univ.filter (fun e : Fin E => (idx (ix2 e 0)).toInt = (n.val : Int)),
          upd (ix2 e c) := by
  show Ideal.hostScatterAdd (rowScatterDims N E C wf) x idx upd (ix2 n c) = _
  unfold Ideal.hostScatterAdd
  congr 1
  refine Finset.sum_bij' (fun j _ => j 0) (fun e _ => ix2 e c) ?_ ?_ ?_ ?_ ?_
  · intro j hj
    have h := (Finset.mem_filter.mp hj).2
    rw [eq_ix2 j] at h
    exact Finset.mem_filter.mpr ⟨Finset.mem_univ _, ((resultIdx?_rows wf idx (j 0) (j 1) c n).mp h).1⟩
  · intro e he
    exact Finset.mem_filter.mpr ⟨Finset.mem_univ _,
      (resultIdx?_rows wf idx e c c n).mpr ⟨(Finset.mem_filter.mp he).2, rfl⟩⟩
  · intro j hj
    have h := (Finset.mem_filter.mp hj).2
    rw [eq_ix2 j] at h
    have hc : j 1 = c := ((resultIdx?_rows wf idx (j 0) (j 1) c n).mp h).2
    subst hc; exact (eq_ix2 j).symm
  · intro e _; rfl
  · intro j hj
    have h := (Finset.mem_filter.mp hj).2
    rw [eq_ix2 j] at h
    have hc : j 1 = c := ((resultIdx?_rows wf idx (j 0) (j 1) c n).mp h).2
    subst hc; exact congrArg upd (eq_ix2 j)

end Scatter

end Idealize.ShloMosaic.RowOps

end
-- ==== Proof.LibAggSplit.lean ====
/-
  AGGREGATION ALONG EDGES SPLITS BY COLUMNS, and a few layout operations of matrices and vectors read at an index.

  Aggregating a matrix `T : [N, C]` along edges — gather the rows `T[idxS[e, 0], :]`, scale row `e` elementwise by
  `nrm[e, :]`, scatter-add row `e` into row `idxT[e, 0]` of `x0` — acts on each column by itself: column `c` of the
  result only reads column `c` of `x0`, `T` and `nrm`. So selecting columns (by any map `emb` of column numbers)
  commutes with the aggregation. The rest reads broadcasts, two-piece concatenations and a scalar splat at an index
  given by coordinates.
-/
import proofs.«118369_j9783935500965_1_alg».proof.Proof.LibRowGatherScatter
import Idealize.ShloMosaic.Lib.Pipeline.Value
import Idealize.ShloMosaic.Lib.ValueLayout

noncomputable section

open scoped BigOperators

namespace Idealize.ShloMosaic.RowOps

open Idealize.ShloMosaic Idealize.ShloMosaic.ValueIdx

/-! ## The column split -/

/-- AGGREGATION COMMUTES WITH A SELECTION OF COLUMNS: if the `[N, C']` operands are the columns `emb c` of the
    `[N, C]` ones, then column `emb c` of the wide aggregation
    `x0[n, :] + ∑_{e : idxT[e,0] = n} T[clamp idxS[e,0], :] * nrm[e, :]` is column `c` of the narrow one: both are
    the same sum, term by term. -/
theorem scatter_gather_cols {φ : FTy} {N E C C' w : Nat} (hN : 0 < N)
    (wfg : GatherDims.WF ⟨2, ![N, C]⟩ ⟨2, ![E, 1]⟩ ⟨2, ![E, C]⟩ [1] [0] [] [0] [] 1 ![1, C])
    (wfg' : GatherDims.WF ⟨2, ![N, C']⟩ ⟨2, ![E, 1]⟩ ⟨2, ![E, C']⟩ [1] [0] [] [0] [] 1 ![1, C'])
    (wfs : ScatterDims.WF ⟨2, ![N, C]⟩ ⟨2, ![E, 1]⟩ ⟨2, ![E, C]⟩ [1] [0] [0] 1)
    (wfs' : ScatterDims.WF ⟨2, ![N, C']⟩ ⟨2, ![E, 1]⟩ ⟨2, ![E, C']⟩ [1] [0] [0] 1)
    (emb : Fin C' → Fin C)
    (x0 : FVec Ideal ⟨2, ![N, C]⟩ φ) (x0' : FVec Ideal ⟨2, ![N, C']⟩ φ) (idxT idxS : IVec ⟨2, ![E, 1]⟩ w)
    (T : FVec Ideal ⟨2, ![N, C]⟩ φ) (T' : FVec Ideal ⟨2, ![N, C']⟩ φ)
    (nrm : FVec Ideal ⟨2, ![E, C]⟩ φ) (nrm' : FVec Ideal ⟨2, ![E, C']⟩ φ)
    (h0 : ∀ n c, x0 (ix2 n (emb c)) = x0' (ix2 n c)) (hT : ∀ r c, T (ix2 r (emb c)) = T' (ix2 r c))
    (hn : ∀ e c, nrm (ix2 e (emb c)) = nrm' (ix2 e c)) (n : Fin N) (c : Fin C') :
    Host.scatterAdd (F := Ideal) (rowScatterDims N E C wfs) x0 idxT
        (mulf (Host.gather (rowGatherDims N E C wfg) T idxS) nrm) (ix2 n (emb c))
      = Host.scatterAdd (F := Ideal) (rowScatterDims N E C' wfs') x0' idxT
        (mulf (Host.gather (rowGatherDims N E C' wfg') T' idxS) nrm') (ix2 n c) := by
  rw [scatterAdd_rows_apply, scatterAdd_rows_apply, h0]
  congr 1
  refine Finset.sum_congr rfl fun e _ => ?_
  rw [mulf_apply, mulf_apply, gather_rows_apply hN, gather_rows_apply hN, hT, hn]

/-! ## Broadcasts read at an index -/

section Broadcast
variable {α : Type}

/-- A vector `[E]` made a column `[E, 1]` reads, at `(e, u)`, the vector at `e`. -/
theorem broadcastInDim_col_apply {E : Nat} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  refine broadcastInDim_apply _ h v (ix2 e u) (ix1 e) fun ax => ?_
  match ax with
  | ⟨0, _⟩ =>
    show e.val = if E = 1 then 0 else e.val
    split
    · have := e.isLt; omega
    · rfl

/-- A column `[E, 1]` stretched over `C` columns reads, at `(e, c)`, the column at `(e, 0)`. -/
theorem broadcastInDim_col_stretch_apply {E C : Nat} (u : (⟨2, ![E, 1]⟩ : Shape).Idx → α)
    (h : (⟨2, ![E, 1]⟩ : Shape).BroadcastsInDim ⟨2, ![E, C]⟩ ![0, 1]) (e : Fin E) (c : Fin C) :
    broadcastInDim ⟨2, ![E, C]⟩ ![0, 1] h u (ix2 e c) = u (ix2 e (0 : Fin 1)) := by
  refine broadcastInDim_apply _ h u (ix2 e c) (ix2 e (0 : Fin 1)) fun ax => ?_
  match ax with
  | ⟨0, _⟩ =>
    show e.val = if E = 1 then 0 else e.val
    split
    · have := e.isLt; omega
    · rfl
  | ⟨1, _⟩ => rfl

/-- A vector `[C]` made a row `[1, C]` reads, at `(u, c)`, the vector at `c`. -/
theorem broadcastInDim_row_apply {C : Nat} (v : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h v (ix2 u c) = v (ix1 c) := by
  refine broadcastInDim_apply _ h v (ix2 u c) (ix1 c) fun ax => ?_
  match ax with
  | ⟨0, _⟩ =>
    show c.val = if C = 1 then 0 else c.val
    split
    · have := c.isLt; omega
    · rfl

/-- A row `[1, C]` stretched over `N` rows reads, at `(n, c)`, the row at `(0, c)`. -/
theorem broadcastInDim_row_stretch_apply {N C : Nat} (u : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h u (ix2 n c) = u (ix2 (0 : Fin 1) c) := by
  refine broadcastInDim_apply _ h u (ix2 n c) (ix2 (0 : Fin 1) c) fun ax => ?_
  match ax with
  | ⟨0, _⟩ => rfl
  | ⟨1, _⟩ =>
    show c.val = if C = 1 then 0 else c.val
    split
    · have := c.isLt; omega
    · rfl

/-- A scalar splat over any shape reads the scalar at every index. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply _ h x i ix0 fun ax => ax.elim0

end Broadcast

/-! ## Two-piece concatenations read at an index -/

section Concat
variable {α : Type}

/-- Two matrices `[K, C₁]` and `[K, C₂]` laid side by side into `[K, Ct]`: at `(k, c)` with `c` a column `c'` of
    the first piece, the result is the first piece at `(k, c')`. -/
theorem concatenate_cols_left_apply {K C₁ C₂ Ct : Nat} (a : (⟨2, ![K, C₁]⟩ : Shape).Idx → α)
    (b : (⟨2, ![K, C₂]⟩ : Shape).Idx → α)
    (h : Shape.Concatenates [⟨2, ![K, C₁]⟩, ⟨2, ![K, C₂]⟩] ⟨2, ![K, Ct]⟩ 1)
    (k : Fin K) (c : Fin Ct) (c' : Fin C₁) (hc : c.val = c'.val) :
    concatenate ⟨2, ![K, Ct]⟩ 1 [⟨⟨2, ![K, C₁]⟩, a⟩, ⟨⟨2, ![K, C₂]⟩, b⟩] h (ix2 k c) = a (ix2 k c') := by
  refine concatenate_pair_apply_left 1 a b h (ix2 k c) rfl (ix2 k c') fun ax => ?_
  match ax with
  | ⟨0, _⟩ => rfl
  | ⟨1, _⟩ => exact hc.symm

/-- … and at `(k, c)` with `c` past the first piece, `c = C₁ + c'`, it is the second piece at `(k, c')`. -/
theorem concatenate_cols_right_apply {K C₁ C₂ Ct : Nat} (a : (⟨2, ![K, C₁]⟩ : Shape).Idx → α)
    (b : (⟨2, ![K, C₂]⟩ : Shape).Idx → α)
    (h : Shape.Concatenates [⟨2, ![K, C₁]⟩, ⟨2, ![K, C₂]⟩] ⟨2, ![K, Ct]⟩ 1)
    (k : Fin K) (c : Fin Ct) (c' : Fin C₂) (hc : c.val = C₁ + c'.val) :
    concatenate ⟨2, ![K, Ct]⟩ 1 [⟨⟨2, ![K, C₁]⟩, a⟩, ⟨⟨2, ![K, C₂]⟩, b⟩] h (ix2 k c) = b (ix2 k c') := by
  refine concatenate_pair_apply_right 1 a b h (ix2 k c) rfl rfl (ix2 k c') (fun ax hax => ?_) ?_
  · match ax with
    | ⟨0, _⟩ => rfl
    | ⟨1, _⟩ => exact absurd rfl hax
  · show c'.val + C₁ = c.val
    omega

/-- Two vectors `[C₁]` and `[C₂]` laid end to end into `[Ct]`: at a position `c` that is position `c'` of the first
    piece, the result is the first piece at `c'`. -/
theorem concatenate_vec_left_apply {C₁ C₂ Ct : Nat} (a : (⟨1, ![C₁]⟩ : Shape).Idx → α)
    (b : (⟨1, ![C₂]⟩ : Shape).Idx → α)
    (h : Shape.Concatenates [⟨1, ![C₁]⟩, ⟨1, ![C₂]⟩] ⟨1, ![Ct]⟩ 0)
    (c : Fin Ct) (c' : Fin C₁) (hc : c.val = c'.val) :
    concatenate ⟨1, ![Ct]⟩ 0 [⟨⟨1, ![C₁]⟩, a⟩, ⟨⟨1, ![C₂]⟩, b⟩] h (ix1 c) = a (ix1 c') := by
  refine concatenate_pair_apply_left 0 a b h (ix1 c) rfl (ix1 c') fun ax => ?_
  match ax with
  | ⟨0, _⟩ => exact hc.symm

/-- … and at a position past the first piece, `c = C₁ + c'`, it is the second piece at `c'`. -/
theorem concatenate_vec_right_apply {C₁ C₂ Ct : Nat} (a : (⟨1, ![C₁]⟩ : Shape).Idx → α)
    (b : (⟨1, ![C₂]⟩ : Shape).Idx → α)
    (h : Shape.Concatenates [⟨1, ![C₁]⟩, ⟨1, ![C₂]⟩] ⟨1, ![Ct]⟩ 0)
    (c : Fin Ct) (c' : Fin C₂) (hc : c.val = C₁ + c'.val) :
    concatenate ⟨1, ![Ct]⟩ 0 [⟨⟨1, ![C₁]⟩, a⟩, ⟨⟨1, ![C₂]⟩, b⟩] h (ix1 c) = b (ix1 c') := by
  refine concatenate_pair_apply_right 0 a b h (ix1 c) rfl rfl (ix1 c') (fun ax hax => ?_) ?_
  · match ax with
    | ⟨0, _⟩ => exact absurd rfl hax
  · show c'.val + C₁ = c.val
    omega

/-- `concatenate_cols_left_apply` with the column written out. -/
theorem concatenate_cols_left_eq {K C₁ C₂ Ct : Nat} (a : (⟨2, ![K, C₁]⟩ : Shape).Idx → α)
    (b : (⟨2, ![K, C₂]⟩ : Shape).Idx → α)
    (h : Shape.Concatenates [⟨2, ![K, C₁]⟩, ⟨2, ![K, C₂]⟩] ⟨2, ![K, Ct]⟩ 1)
    (k : Fin K) (c' : Fin C₁) (hlt : c'.val < Ct) :
    concatenate ⟨2, ![K, Ct]⟩ 1 [⟨⟨2, ![K, C₁]⟩, a⟩, ⟨⟨2, ![K, C₂]⟩, b⟩] h (ix2 k ⟨c'.val, hlt⟩) = a (ix2 k c') :=
  concatenate_cols_left_apply a b h k ⟨c'.val, hlt⟩ c' rfl

/-- `concatenate_cols_right_apply` with the column written out. -/
theorem concatenate_cols_right_eq {K C₁ C₂ Ct : Nat} (a : (⟨2, ![K, C₁]⟩ : Shape).Idx → α)
    (b : (⟨2, ![K, C₂]⟩ : Shape).Idx → α)
    (h : Shape.Concatenates [⟨2, ![K, C₁]⟩, ⟨2, ![K, C₂]⟩] ⟨2, ![K, Ct]⟩ 1)
    (k : Fin K) (c' : Fin C₂) (hlt : C₁ + c'.val < Ct) :
    concatenate ⟨2, ![K, Ct]⟩ 1 [⟨⟨2, ![K, C₁]⟩, a⟩, ⟨⟨2, ![K, C₂]⟩, b⟩] h (ix2 k ⟨C₁ + c'.val, hlt⟩) = b (ix2 k c') :=
  concatenate_cols_right_apply a b h k ⟨C₁ + c'.val, hlt⟩ c' rfl

/-- `concatenate_vec_left_apply` with the position written out. -/
theorem concatenate_vec_left_eq {C₁ C₂ Ct : Nat} (a : (⟨1, ![C₁]⟩ : Shape).Idx → α)
    (b : (⟨1, ![C₂]⟩ : Shape).Idx → α)
    (h : Shape.Concatenates [⟨1, ![C₁]⟩, ⟨1, ![C₂]⟩] ⟨1, ![Ct]⟩ 0)
    (c' : Fin C₁) (hlt : c'.val < Ct) :
    concatenate ⟨1, ![Ct]⟩ 0 [⟨⟨1, ![C₁]⟩, a⟩, ⟨⟨1, ![C₂]⟩, b⟩] h (ix1 ⟨c'.val, hlt⟩) = a (ix1 c') :=
  concatenate_vec_left_apply a b h ⟨c'.val, hlt⟩ c' rfl

/-- `concatenate_vec_right_apply` with the position written out. -/
theorem concatenate_vec_right_eq {C₁ C₂ Ct : Nat} (a : (⟨1, ![C₁]⟩ : Shape).Idx → α)
    (b : (⟨1, ![C₂]⟩ : Shape).Idx → α)
    (h : Shape.Concatenates [⟨1, ![C₁]⟩, ⟨1, ![C₂]⟩] ⟨1, ![Ct]⟩ 0)
    (c' : Fin C₂) (hlt : C₁ + c'.val < Ct) :
    concatenate ⟨1, ![Ct]⟩ 0 [⟨⟨1, ![C₁]⟩, a⟩, ⟨⟨1, ![C₂]⟩, b⟩] h (ix1 ⟨C₁ + c'.val, hlt⟩) = b (ix1 c') :=
  concatenate_vec_right_apply a b h ⟨C₁ + c'.val, hlt⟩ c' rfl

end Concat

end Idealize.ShloMosaic.RowOps

end
-- ==== Proof.Bridge.lean ====
/-
  THE TWO PROGRAMS COMPUTE THE SAME LAYERS. The reference computes each graph convolution separately — a dense
  product, the aggregation along the edges, the bias added to every row — and the kernel program computes the hidden
  layer the same way but FUSES the two output layers: it lays the two [128, 64] weight matrices side by side into one
  [128, 128] matrix and the two [64] biases end to end into one [128] vector, runs one 128-column convolution, and cuts
  the result into its columns 0 … 63 (the means) and 64 … 127 (the log standard deviations).

  Hidden layer: once the reference's dense product is the sum over k of x[r, k] · w[k, c], both sides are, entry by
  entry, max (aggregate(x · W₁)[n, c] + b₁[c]) 0 with one and the same aggregation term.

  Output layers: column j of a product h · [W_μ | W_σ] is column j of h · W_μ when j < 64 and column j − 64 of h · W_σ
  otherwise; the aggregation along the edges acts on every column by itself (row n of the result is the sum over the
  edges e arriving at n of the source row of e scaled by e's factor, column by column), so it commutes with the choice
  of 64 of the 128 columns; and the stacked bias at position j is b_μ[j] or b_σ[j − 64]. Hence columns 0 … 63 of the
  fused layer are the reference's layer with (W_μ, b_μ) and columns 64 … 127 the one with (W_σ, b_σ).
-/
import proofs.«118369_j9783935500965_1_alg».proof.Proof.KernelFns
import proofs.«118369_j9783935500965_1_alg».proof.Proof.RefFns
import proofs.«118369_j9783935500965_1_alg».proof.Proof.RefDense
import proofs.«118369_j9783935500965_1_alg».proof.Proof.LibAggSplit

set_option maxRecDepth 16384

noncomputable section

namespace Cert.Bridge

open Idealize.ShloMosaic Idealize.ShloMosaic.ValueIdx Idealize.ShloMosaic.RowOps
open Cert.KernelIdeal

/-- The hidden layers agree: entry (n, c) is max (aggregate(x · W₁)[n, c] + b₁[c]) 0 on both sides. -/
theorem hidden_eq (x : FVec Ideal S50000x128 .f32) (w1 : FVec Ideal S128x128 .f32) (b1 : FVec Ideal S128 .f32) (ei : IVec S2x1600000 32) :
    Cert.ReferenceIdeal.RefFns.hidden (F := Ideal) x w1 b1 ei = Cert.KernelIdeal.KernelFns.hiddenK x w1 b1 ei := by
  unfold Cert.ReferenceIdeal.RefFns.hidden Cert.KernelIdeal.KernelFns.hiddenK
  rw [Cert.ReferenceIdeal.RefDense.dotA_eq]
  funext i
  obtain ⟨n, c, rfl⟩ : ∃ n c, i = ix2 n c := ⟨i 0, i 1, eq_ix2 i⟩
  rw [maximumf_apply, addf_apply, Cert.Gcn.addRowRelu_apply, broadcastInDim_row_stretch_apply, broadcastInDim_row_apply,
    broadcastInDim_scalar_apply, constant_apply, shapeCast_a_1a_apply]

/-! ## The aggregation, column by column -/

/-- THE AGGREGATION COMMUTES WITH A CHOICE OF 64 OF THE 128 COLUMNS: if `t'` is the columns `off, …, off + 63` of `t`,
    the 128-column aggregation of `t` read at column `off + c` is the 64-column aggregation of `t'` (the reference's:
    same edge arrays, same factors) read at column `c`. -/
theorem aggr_cols (off : Nat) (hoff : off + 64 ≤ 128) (t : FVec Ideal S50000x128 .f32) (t' : FVec Ideal S50000x64 .f32)
    (ei : IVec S2x1600000 32)
    (hT : ∀ (r : Fin 50000) (c : Fin 64), t (ix2 r (⟨off + c.val, by omega⟩ : Fin 128)) = t' (ix2 r c))
    (n : Fin 50000) (c : Fin 64) :
    Cert.KernelIdeal.HostFns.aggr (F := Ideal) t ei (ix2 n (⟨off + c.val, by omega⟩ : Fin 128))
      = Host.scatterAdd (F := Ideal) Cert.ReferenceIdeal.scatter_S50000x64_S1650000x1_S1650000x64_1_0_0_1
          (broadcastInDim S50000x64 ![] Cert.ReferenceIdeal.Gen.bcast_S_S50000x64 (constant (F := Ideal) S_ .f32 0x00000000#32))
          (broadcastInDim S1650000x1 ![0] Cert.ReferenceIdeal.Gen.bcast_S1650000_S1650000x1_0 (Cert.KernelIdeal.HostFns.tgtIdx ei))
          (mulf (Host.gather Cert.ReferenceIdeal.gather_S50000x64_S1650000x1_S1650000x64_1_0_n_n_0_1_164 t'
              (broadcastInDim S1650000x1 ![0] Cert.ReferenceIdeal.Gen.bcast_S1650000_S1650000x1_0 (Cert.KernelIdeal.HostFns.srcSel ei)))
            (broadcastInDim Cert.ReferenceIdeal.S1650000x64 ![0, 1] Cert.ReferenceIdeal.Gen.bcast_S1650000x1_S1650000x64_0_1
              (broadcastInDim S1650000x1 ![0] Cert.ReferenceIdeal.Gen.bcast_S1650000_S1650000x1_0 (Cert.KernelIdeal.HostFns.edgeNorm (F := Ideal) ei))))
          (ix2 n c) := by
  unfold Cert.KernelIdeal.HostFns.aggr Cert.KernelIdeal.HostFns.aggrOf
  refine scatter_gather_cols (N := 50000) (E := 1650000) (C := 128) (C' := 64) (by decide) (by decide) (by decide)
    (by decide) (by decide) (fun c => (⟨off + c.val, by omega⟩ : Fin 128)) _ _ _ _ t t' _ _ ?_ hT ?_ n c
  · intro n c
    rw [broadcastInDim_scalar_apply, broadcastInDim_scalar_apply]
  · intro e c
    rw [broadcastInDim_col_stretch_apply, broadcastInDim_col_apply, broadcastInDim_col_stretch_apply,
      broadcastInDim_col_apply]

/-- The fused layer's columns 0 … 63 are the reference's output layer with the first weights and bias. -/
theorem mu_eq (h : FVec Ideal S50000x128 .f32) (wmu : FVec Ideal S128x64 .f32) (bmu : FVec Ideal S64 .f32) (wls : FVec Ideal S128x64 .f32)
    (bls : FVec Ideal S64 .f32) (ei : IVec S2x1600000 32) :
    Cert.KernelIdeal.KernelFns.muK h wmu bmu wls bls ei = Cert.ReferenceIdeal.RefFns.layer64 (F := Ideal) h wmu bmu ei := by
  unfold Cert.KernelIdeal.KernelFns.muK Cert.KernelIdeal.KernelFns.outK Cert.ReferenceIdeal.RefFns.layer64
  funext i
  obtain ⟨n, c, rfl⟩ : ∃ n c, i = ix2 n c := ⟨i 0, i 1, eq_ix2 i⟩
  rw [slice2_axis1_eq, Cert.Gcn.addRow_apply, shapeCast_a_1a_apply, addf_apply, broadcastInDim_row_stretch_apply,
    broadcastInDim_row_apply, concatenate_vec_left_apply bmu bls _ _ c (Nat.zero_add _)]
  refine congrArg (· + bmu (ix1 c)) ?_
  refine aggr_cols 0 (by omega) _ _ ei (fun r c => ?_) n c
  rw [Cert.ReferenceIdeal.RefDense.dotB_eq, Cert.Gcn.mm_apply, Cert.Gcn.mm_apply]
  refine Finset.sum_congr rfl fun k _ => ?_
  rw [concatenate_cols_left_apply wmu wls _ k _ c (Nat.zero_add _)]

/-- The fused layer's columns 64 … 127 are the reference's output layer with the second weights and bias. -/
theorem ls_eq (h : FVec Ideal S50000x128 .f32) (wmu : FVec Ideal S128x64 .f32) (bmu : FVec Ideal S64 .f32) (wls : FVec Ideal S128x64 .f32)
    (bls : FVec Ideal S64 .f32) (ei : IVec S2x1600000 32) :
    Cert.KernelIdeal.KernelFns.lsK h wmu bmu wls bls ei = Cert.ReferenceIdeal.RefFns.layer64 (F := Ideal) h wls bls ei := by
  unfold Cert.KernelIdeal.KernelFns.lsK Cert.KernelIdeal.KernelFns.outK Cert.ReferenceIdeal.RefFns.layer64
  funext i
  obtain ⟨n, c, rfl⟩ : ∃ n c, i = ix2 n c := ⟨i 0, i 1, eq_ix2 i⟩
  rw [slice2_axis1_eq, Cert.Gcn.addRow_apply, shapeCast_a_1a_apply, addf_apply, broadcastInDim_row_stretch_apply,
    broadcastInDim_row_apply, concatenate_vec_right_apply bmu bls _ _ c rfl]
  refine congrArg (· + bls (ix1 c)) ?_
  refine aggr_cols 64 (by omega) _ _ ei (fun r c => ?_) n c
  rw [Cert.ReferenceIdeal.RefDense.dotB_eq, Cert.Gcn.mm_apply, Cert.Gcn.mm_apply]
  refine Finset.sum_congr rfl fun k _ => ?_
  rw [concatenate_cols_right_apply wmu wls _ k _ c rfl]

end Cert.Bridge

end
-- ==== Proof.lean ====
/-
  Two programs compute the same two-layer graph convolution with two heads, on 50000 nodes with 128 features each and
  1600000 edges, every node also joined to itself.

  One layer is: a dense product x · W; an aggregation along the edges (the source node's row of the product is
  fetched for every edge, scaled by the edge's factor, and added into the target node's row); a bias row added to
  every row; and, in the first layer only, the maximum with zero. The first layer gives the hidden array h from the
  features, W₁ [128, 128] and b₁ [128]. The two heads are one more layer each on h: the means with W_μ [128, 64] and
  b_μ [64], the log standard deviations with W_σ [128, 64] and b_σ [64].

  The kernel program does the dense products and the bias steps in four launches, each walking the 50000 rows in
  five blocks of 10000 rows, and the aggregations on the host between them: launch 0 is x · W₁; launch 1 adds b₁ and
  takes the maximum with zero; launch 2 is h · [W_μ | W_σ], the two weight matrices set side by side as one
  [128, 128] matrix; launch 3 adds [b_μ | b_σ]. Its two results are columns 0 … 63 and columns 64 … 127 of the last
  array. The reference program computes h the same way, all on the host, and then each head separately as its own
  64-column layer.

  At the exact values (a float an extended real, every operation exact, a change of format the identity) the two
  agree entry by entry, for two reasons. Each launch's result array is one function of the whole arrays it reads:
  an entry of a block depends only on its own row and on the small second array, so the block a grid point writes is
  those rows of the whole-array function, and the five blocks tile the rows; that function is the host's dense
  product, or its bias step. And a product with weights set side by side, an aggregation along the edges, and the
  addition of a bias row all act column by column: column j < 64 of the 128-column layer sees only column j of W_μ
  and entry j of b_μ, column 64 + j only column j of W_σ and entry j of b_σ. So the two column halves of the kernel
  program's last array are the reference program's two 64-column layers.

  This module states the five claims from those parts. The two kernel programs run and keep their arguments (their
  frames). The reference program's run gives its two results as the composed term of its host operations, which is
  "a 64-column layer on the hidden array" twice; dropping the results leaves its frame. The exact-value kernel
  program's run gives its two results as the two column halves of the 128-column layer on the same hidden array.
  The idealization rewrote no operation, so nothing is owed for it. Arguments that agree then give equal results.
-/
import proofs.«118369_j9783935500965_1_alg».proof.Defs
import proofs.«118369_j9783935500965_1_alg».proof.Proof.Gen.Kernel
import proofs.«118369_j9783935500965_1_alg».proof.Proof.Gen.Kernel.Skeleton
import proofs.«118369_j9783935500965_1_alg».proof.Proof.Gen.Kernel.Launch
import proofs.«118369_j9783935500965_1_alg».proof.Proof.Gen.Kernel.Points
import proofs.«118369_j9783935500965_1_alg».proof.Proof.Gen.Kernel.Frame
import proofs.«118369_j9783935500965_1_alg».proof.Proof.Gen.KernelIdeal
import proofs.«118369_j9783935500965_1_alg».proof.Proof.Gen.KernelIdeal.Skeleton
import proofs.«118369_j9783935500965_1_alg».proof.Proof.Gen.KernelIdeal.Launch
import proofs.«118369_j9783935500965_1_alg».proof.Proof.Gen.KernelIdeal.Points
import proofs.«118369_j9783935500965_1_alg».proof.Proof.Gen.KernelIdeal.Frame
import proofs.«118369_j9783935500965_1_alg».proof.Proof.Gen.ReferenceIdeal
import proofs.«118369_j9783935500965_1_alg».proof.Proof.Gen.Pre_finite_inputs
import proofs.«118369_j9783935500965_1_alg».proof.Proof.RefRun
import proofs.«118369_j9783935500965_1_alg».proof.Proof.RefFns
import proofs.«118369_j9783935500965_1_alg».proof.Proof.KernelRun
import proofs.«118369_j9783935500965_1_alg».proof.Proof.ChainValue
import proofs.«118369_j9783935500965_1_alg».proof.Proof.Bridge
import Idealize.ShloMosaic.Adequacy
import Idealize.ShloMosaic.Init

noncomputable section

namespace Cert.Proof

open Idealize.ShloMosaic Idealize.ShloMosaic.TcCoe Idealize.SL.Sem

/-! ## The two results as functions of the launch memory -/

/-- The hidden array on device `c`: the first layer of the features, W₁, b₁ along the edge list, as the kernel
    program computes it from the launch memory `m`. -/
abbrev hiddenOf (m : (ℓ : Loc Cert.KernelIdeal.nD Cert.KernelIdeal.τ Cert.KernelIdeal.sig) → Buf (Elt Ideal) ℓ)
    (c : Dev Cert.KernelIdeal.nD) : FVec Ideal Cert.KernelIdeal.S50000x128 .f32 :=
  Cert.KernelIdeal.KernelFns.hiddenK
    (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg1))

/-- The means on device `c`: columns 0 … 63 of the 128-column layer of the hidden array with the stacked weights and
    biases. -/
abbrev meansOf (m : (ℓ : Loc Cert.KernelIdeal.nD Cert.KernelIdeal.τ Cert.KernelIdeal.sig) → Buf (Elt Ideal) ℓ)
    (c : Dev Cert.KernelIdeal.nD) : FVec Ideal Cert.KernelIdeal.S50000x64 .f32 :=
  Cert.KernelIdeal.KernelFns.muK (hiddenOf m c)
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg1))

/-- The log standard deviations on device `c`: columns 64 … 127 of the same 128-column layer. -/
abbrev logStdOf (m : (ℓ : Loc Cert.KernelIdeal.nD Cert.KernelIdeal.τ Cert.KernelIdeal.sig) → Buf (Elt Ideal) ℓ)
    (c : Dev Cert.KernelIdeal.nD) : FVec Ideal Cert.KernelIdeal.S50000x64 .f32 :=
  Cert.KernelIdeal.KernelFns.lsK (hiddenOf m c)
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg1))

/-! ## The claims -/

/-- The kernel program as printed runs and keeps its arguments. -/
theorem frame_k : Cert.frame_Kernel := fun m ρ _ => Cert.Kernel.Gen.frame m ρ

/-- The kernel program at the exact values runs and keeps its arguments. -/
theorem frame_ki : Cert.frame_KernelIdeal := fun m ρ _ => Cert.KernelIdeal.Gen.frame m ρ

/-- The reference program runs and keeps its arguments: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The exact-value kernel program is the printed one read at the exact values: no operation was rewritten. -/
theorem preserves : Cert.preserves_Kernel_KernelIdeal := trivial

/-- From memories that agree on the eight arguments both programs run, keep their arguments, and end with equal
    results: the kernel program's are the two column halves of the 128-column layer on the hidden array, the
    reference program's the two 64-column layers on the reference's hidden array; the hidden arrays are one function
    of the arguments, and each column half of the wide layer is the narrow layer with that half's weights and bias. -/
theorem algebraic : Cert.algebraic_KernelIdeal_ReferenceIdeal := by
  intro m ρ m' ρ' _ hagree
  refine ⟨fun c => meansOf m c, fun c => logStdOf m c, ?_, ?_⟩
  · exact (θ_run Cert.KernelIdeal.defs _ _).mono
      (fun _ h c => ⟨(h c).1.trans (Cert.KernelIdeal.ChainValue.out_mu m ρ c),
        (h c).2.1.trans (Cert.KernelIdeal.ChainValue.out_ls m ρ c), (h c).2.2⟩)
      (Cert.KernelIdeal.RunValues.run_outputs (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · obtain ⟨e0, e1, e2, e3, e4, e5, e6, e7⟩ := hagree c
      rw [Cert.ReferenceIdeal.RefFns.res_mu (F := Ideal) m' c, e0, e1, e2, e3, e4, e5, Cert.Bridge.hidden_eq]
      exact (Cert.Bridge.mu_eq _ _ _ _ _ _).symm
    · obtain ⟨e0, e1, e2, e3, e4, e5, e6, e7⟩ := hagree c
      rw [Cert.ReferenceIdeal.RefFns.res_ls (F := Ideal) m' c, e0, e1, e2, e3, e6, e7, Cert.Bridge.hidden_eq]
      exact (Cert.Bridge.ls_eq _ _ _ _ _ _).symm

/-- Everything claimed, under the programs' stated facts, which the generated modules prove. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
